-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x65536x512 : Shape := ⟨3, ![1, 65536, 512]⟩
abbrev S512x512 : Shape := ⟨2, ![512, 512]⟩
abbrev S_ : Shape := ⟨0, ![]⟩

class Facts : Prop where
  bcast_S_S1x65536x512 : S_.BroadcastsInDim S1x65536x512 (![] : Fin 0 → Fin S1x65536x512.rank)
  reducesTo_S1x65536x512_S_d0_1_2 : S1x65536x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S1x65536x512 .f32) (main_arg1 : FVec F S512x512 .f32) : IVec S_ 1 :=
  let main_v0 : FVec F S1x65536x512 .f32 := Host.absf main_arg0
  let main_cst : FVec F S_ .f32 := constant S_ .f32 0x7F800000#32
  let main_v1 : FVec F S1x65536x512 .f32 := broadcastInDim S1x65536x512 ![] bcast_S_S1x65536x512 main_cst
  let main_v2 : IVec S1x65536x512 1 := cmpf .olt main_v0 main_v1
  let main_c : IVec S_ 1 := constantI S_ 1 1#1
  let main_v3 : IVec S_ 1 := (fun x v => Host.reduce IntOp.andi x v reducesTo_S1x65536x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S1x65536x512 : Shape := ⟨3, ![1, 65536, 512]⟩
abbrev S512x512 : Shape := ⟨2, ![512, 512]⟩
abbrev S65536x512 : Shape := ⟨2, ![65536, 512]⟩
abbrev S512x1 : Shape := ⟨2, ![512, 1]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩
abbrev S1x1024 : Shape := ⟨2, ![1, 1024]⟩
abbrev S512 : Shape := ⟨1, ![512]⟩
abbrev S512x65536 : Shape := ⟨2, ![512, 65536]⟩

abbrev nBuf : Space → Nat
  | .hbm => 6
  | .vmem => 13
  | .smem => 0
  | _ => 0

abbrev bufTy : (tb : Table) → Fin (tcTables nBuf tb) → BufTy
  | .hbm, ⟨0, _⟩ => ⟨S1x65536x512, .f32⟩
  | .hbm, ⟨1, _⟩ => ⟨S512x512, .f32⟩
  | .hbm, ⟨2, _⟩ => ⟨S65536x512, .f32⟩
  | .hbm, ⟨3, _⟩ => ⟨S512x1, .f32⟩
  | .hbm, ⟨4, _⟩ => ⟨S65536x512, .f32⟩
  | .hbm, ⟨5, _⟩ => ⟨S512x65536, .f32⟩
  | .local _ .vmem, ⟨0, _⟩ => ⟨S512x512, .f32⟩
  | .local _ .vmem, ⟨1, _⟩ => ⟨S1024x512, .f32⟩
  | .local _ .vmem, ⟨2, _⟩ => ⟨S1024x512, .f32⟩
  | .local _ .vmem, ⟨3, _⟩ => ⟨S512x1, .f32⟩
  | .local _ .vmem, ⟨4, _⟩ => ⟨S512x1, .f32⟩
  | .local _ .vmem, ⟨5, _⟩ => ⟨S512x512, .f32⟩
  | .local _ .vmem, ⟨6, _⟩ => ⟨S1024x512, .f32⟩
  | .local _ .vmem, ⟨7, _⟩ => ⟨S1024x512, .f32⟩
  | .local _ .vmem, ⟨8, _⟩ => ⟨S512x1, .f32⟩
  | .local _ .vmem, ⟨9, _⟩ => ⟨S1024x512, .f32⟩
  | .local _ .vmem, ⟨10, _⟩ => ⟨S1024x512, .f32⟩
  | .local _ .vmem, ⟨11, _⟩ => ⟨S512x1024, .f32⟩
  | .local _ .vmem, ⟨12, _⟩ => ⟨S512x1024, .f32⟩
  | _, _ => ⟨S1x65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v37 : BitVec 1 := Scalar.cmpi .eq arg0 c63_i32
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1x65536x512_S65536x512 : S1x65536x512.ShapeCasts S65536x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  transposes_S1024x512_p1_0_S512x1024 : S1024x512.Transposes [1, 0] S512x1024
  reduces_S1024x512_S1024 : S1024x512.Reduces [1] S1024
  shapeCasts_S1024_S1024x1 : S1024.ShapeCasts S1024x1
  transposes_S1024x1_p1_0_S1x1024 : S1024x1.Transposes [1, 0] S1x1024
  reduces_S512x512_S512 : S512x512.Reduces [1] S512
  shapeCasts_S512_S512x1 : S512.ShapeCasts S512x1
  broadcasts_S512x1_S512x1024 : S512x1.Broadcasts S512x1024
  broadcasts_S1x1024_S512x1024 : S1x1024.Broadcasts S512x1024
  reduces_S512x1024_S512 : S512x1024.Reduces [1] S512
  inb_S512x1024_S512x1024_0_0 : ∀ a, (![0, 0] : Fin 2 → Nat) a + S512x1024.size a ≤ S512x1024.size a
  h_S512x1024 : 0 < S512x1024.numel
  transposes_S512x1024_p1_0_S1024x512 : S512x1024.Transposes [1, 0] S1024x512
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .f32 = 32 ∨ (Rect.block (s := S512x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S65536x512.size a
  hwx1_1 : ∀ i : grid1.Coords, EltTy.bits .f32 = 32 ∨ (Rect.block (s := S65536x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S512x1.size a
  hwx1_2 : ∀ i : grid1.Coords, EltTy.bits .f32 = 32 ∨ (Rect.block (s := S512x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S65536x512.size a
  hwx1_3 : ∀ i : grid1.Coords, EltTy.bits .f32 = 32 ∨ (Rect.block (s := S65536x512) S1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S512x65536.size a
  hwx1_4 : ∀ i : grid1.Coords, EltTy.bits .f32 = 32 ∨ (Rect.block (s := S512x65536) S512x1024.size (cc1_transform_4 i) (hinb1_4 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg1) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S1024x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x65536x512 : Shape := ⟨3, ![1, 65536, 512]⟩
abbrev S512x512 : Shape := ⟨2, ![512, 512]⟩
abbrev S65536x512 : Shape := ⟨2, ![65536, 512]⟩
abbrev S_ : Shape := ⟨0, ![]⟩
abbrev S65536 : Shape := ⟨1, ![65536]⟩
abbrev S512 : Shape := ⟨1, ![512]⟩
abbrev S512x65536 : Shape := ⟨2, ![512, 65536]⟩
abbrev S512x1 : Shape := ⟨2, ![512, 1]⟩
abbrev S1x65536 : Shape := ⟨2, ![1, 65536]⟩

abbrev nBuf : Space → Nat
  | .hbm => 37
  | .vmem => 0
  | .smem => 0
  | _ => 0

abbrev bufTy : (tb : Table) → Fin (tcTables nBuf tb) → BufTy
  | .hbm, ⟨0, _⟩ => ⟨S1x65536x512, .f32⟩
  | .hbm, ⟨1, _⟩ => ⟨S512x512, .f32⟩
  | .hbm, ⟨2, _⟩ => ⟨S65536x512, .f32⟩
  | .hbm, ⟨3, _⟩ => ⟨S65536x512, .f32⟩
  | .hbm, ⟨4, _⟩ => ⟨S_, .f32⟩
  | .hbm, ⟨5, _⟩ => ⟨S65536, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S512x65536, .f32⟩
  | .hbm, ⟨10, _⟩ => ⟨S512x1, .f32⟩
  | .hbm, ⟨11, _⟩ => ⟨S1x65536, .f32⟩
  | .hbm, ⟨12, _⟩ => ⟨S512x65536, .f32⟩
  | .hbm, ⟨13, _⟩ => ⟨S512x65536, .f32⟩
  | .hbm, ⟨14, _⟩ => ⟨S512x65536, .f32⟩
  | .hbm, ⟨15, _⟩ => ⟨S_, .f32⟩
  | .hbm, ⟨16, _⟩ => ⟨S512x65536, .f32⟩
  | .hbm, ⟨17, _⟩ => ⟨S512x65536, .f32⟩
  | .hbm, ⟨18, _⟩ => ⟨S512x65536, .f32⟩
  | .hbm, ⟨19, _⟩ => ⟨S_, .f32⟩
  | .hbm, ⟨20, _⟩ => ⟨S512x65536, .f32⟩
  | .hbm, ⟨21, _⟩ => ⟨S512x65536, .f32⟩
  | .hbm, ⟨22, _⟩ => ⟨S512x65536, .f32⟩
  | .hbm, ⟨23, _⟩ => ⟨S_, .f32⟩
  | .hbm, ⟨24, _⟩ => ⟨S_, .f32⟩
  | .hbm, ⟨25, _⟩ => ⟨S512x65536, .f32⟩
  | .hbm, ⟨26, _⟩ => ⟨S512x65536, .f32⟩
  | .hbm, ⟨27, _⟩ => ⟨S_, .f32⟩
  | .hbm, ⟨28, _⟩ => ⟨S512x65536, .f32⟩
  | .hbm, ⟨29, _⟩ => ⟨S512x65536, .f32⟩
  | .hbm, ⟨30, _⟩ => ⟨S_, .f32⟩
  | .hbm, ⟨31, _⟩ => ⟨S512, .f32⟩
  | .hbm, ⟨32, _⟩ => ⟨S512x1, .f32⟩
  | .hbm, ⟨33, _⟩ => ⟨S512x65536, .f32⟩
  | .hbm, ⟨34, _⟩ => ⟨S512x65536, .f32⟩
  | .hbm, ⟨35, _⟩ => ⟨S65536x512, .f32⟩
  | .hbm, ⟨36, _⟩ => ⟨S65536x512, .f32⟩
  | _, _ => ⟨S1x65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S1x65536x512_S65536x512 : S1x65536x512.ShapeCasts S65536x512
  reducesTo_S65536x512_S65536_d1 : S65536x512.ReducesTo [1] S65536
  h_S_ : 0 < S_.numel
  reducesTo_S512x512_S512_d1 : S512x512.ReducesTo [1] S512
  bcast_S512_S512x1_0 : S512.BroadcastsInDim S512x1 (![0] : Fin 1 → Fin S512x1.rank)
  bcast_S65536_S1x65536_1 : S65536.BroadcastsInDim S1x65536 (![1] : Fin 1 → Fin S1x65536.rank)
  bcast_S512x1_S512x65536_0_1 : S512x1.BroadcastsInDim S512x65536 (![0, 1] : Fin 2 → Fin S512x65536.rank)
  bcast_S1x65536_S512x65536_0_1 : S1x65536.BroadcastsInDim S512x65536 (![0, 1] : Fin 2 → Fin S512x65536.rank)
  bcast_S_S512x65536 : S_.BroadcastsInDim S512x65536 (![] : Fin 0 → Fin S512x65536.rank)
  reducesTo_S512x65536_S512_d1 : S512x65536.ReducesTo [1] S512
  transposes_S512x65536_S65536x512_1_0 : S512x65536.Transposes [1, 0] S65536x512
  dot_S512x512_S65536x512_S512x65536_1_1_0_0_n_n_wf : DotDims.WF S512x512 S65536x512 S512x65536 [1] [1] [0] [0] [] []

variable [Facts₀]

def dot_S512x512_S65536x512_S512x65536_1_1_0_0_n_n : DotDims S512x512 S65536x512 S512x65536 where
  lhsContracting := [1]
  rhsContracting := [1]
  lhsNonContracting := [0]
  rhsNonContracting := [0]
  lhsBatch := []
  rhsBatch := []
  wf := dot_S512x512_S65536x512_S512x65536_1_1_0_0_n_n_wf

class Facts : Prop extends Facts₀ where

variable [Facts]
-- ==== Proof.NormLaw.lean ====
import Idealize.ShloMosaic.PureOps.Ideal

/-!
# Normalised reciprocals do not see a positive scale

For nonnegative reals `s j` (distances) and a positive real `a` (a scale), put `u j = 1 / (s j · a)` on the
extended reals, with the convention `1 / 0 = +∞`. The normalised weight `u i / ∑ j, u j` does not depend on `a`:

* if some `s j` is `0`, its term is `+∞`, every term is `≥ 0`, so the sum is `+∞` and every weight is
  `u i · (+∞)⁻¹ = u i · 0 = 0` (also for `u i = +∞`, as `+∞ · 0 = 0`);
* if every `s j` is positive, all terms are reals, `∑ j, (s j · a)⁻¹ = a⁻¹ · ∑ j, (s j)⁻¹` is a positive real and
  `a⁻¹` cancels in the quotient.

So a kernel that multiplies the distances by one positive constant and a reference that divides them by another
(here `√512`) produce the same weights.
-/

noncomputable section

namespace Cert.NormLaw

open Idealize.ShloMosaic

/-- A finite sum of reals, taken in the extended reals, is the real sum. -/
theorem coe_sum {ι : Type} (t : Finset ι) (f : ι → ℝ) :
    (∑ j ∈ t, ((f j : ℝ) : EReal)) = ((∑ j ∈ t, f j : ℝ) : EReal) := by
  classical
  refine Finset.induction_on t ?_ ?_
  · simp
  · intro b t hb ih
    rw [Finset.sum_insert hb, Finset.sum_insert hb, ih, EReal.coe_add]

/-- Dividing by `+∞` gives `0`, whatever the numerator. -/
theorem div_top (x : EReal) : Ideal.div x ⊤ = 0 := by
  rw [Ideal.div, if_neg EReal.top_ne_zero, EReal.inv_top, mul_zero]

/-- A finite sum of nonnegative extended reals one of which is `+∞` is `+∞`. -/
theorem sum_eq_top {ι : Type} [Fintype ι] [DecidableEq ι] (f : ι → EReal) (h0 : ∀ j, 0 ≤ f j) (j0 : ι)
    (hj0 : f j0 = ⊤) : (∑ j, f j) = ⊤ := by
  rw [← Finset.add_sum_erase Finset.univ f (Finset.mem_univ j0), hj0]
  refine EReal.top_add_of_ne_bot ?_
  have h : (0 : EReal) ≤ ∑ j ∈ Finset.univ.erase j0, f j := Finset.sum_nonneg fun j _ => h0 j
  exact (lt_of_lt_of_le EReal.bot_lt_zero h).ne'

/-- The reciprocal of a scaled distance: `+∞` at distance `0`, the real reciprocal otherwise. -/
theorem inv_scaled (s a : ℝ) (ha : 0 < a) :
    Ideal.div 1 ((s : EReal) * (a : EReal)) = if s = 0 then ⊤ else (((s * a)⁻¹ : ℝ) : EReal) := by
  rw [← EReal.coe_mul]
  by_cases hs : s = 0
  · subst hs
    rw [if_pos rfl, zero_mul, EReal.coe_zero, Ideal.div, if_pos rfl, if_pos zero_lt_one]
  · have h : s * a ≠ 0 := mul_ne_zero hs ha.ne'
    rw [if_neg hs, Ideal.div_coe h, one_mul, one_div]

/-- The reciprocal of a scaled nonnegative distance is nonnegative. -/
theorem inv_scaled_nonneg (s a : ℝ) (hs : 0 ≤ s) (ha : 0 < a) :
    (0 : EReal) ≤ Ideal.div 1 ((s : EReal) * (a : EReal)) := by
  rw [inv_scaled s a ha]
  split_ifs
  · exact le_top
  · exact EReal.coe_nonneg.mpr (inv_nonneg.mpr (mul_nonneg hs ha.le))

/-- The normalised weight in closed form, free of the scale: `0` on a row with a zero distance, else the real
    `(s i)⁻¹ / ∑ j, (s j)⁻¹`. -/
theorem weight_closed {ι : Type} [Fintype ι] (s : ι → ℝ) (hs : ∀ j, 0 ≤ s j) (a : ℝ) (ha : 0 < a) (i : ι) :
    Ideal.div (Ideal.div 1 ((s i : EReal) * (a : EReal))) (∑ j, Ideal.div 1 ((s j : EReal) * (a : EReal)))
      = if ∃ j, s j = 0 then 0 else (((s i)⁻¹ / ∑ j, (s j)⁻¹ : ℝ) : EReal) := by
  classical
  by_cases hz : ∃ j, s j = 0
  · obtain ⟨j0, hj0⟩ := hz
    rw [if_pos ⟨j0, hj0⟩,
      sum_eq_top _ (fun j => inv_scaled_nonneg (s j) a (hs j) ha) j0
        (by rw [inv_scaled (s j0) a ha, if_pos hj0]),
      div_top]
  · rw [if_neg hz]
    have hne : ∀ j, s j ≠ 0 := fun j h => hz ⟨j, h⟩
    have hpos : ∀ j, 0 < s j := fun j => lt_of_le_of_ne (hs j) (hne j).symm
    have hterm : ∀ j, Ideal.div 1 ((s j : EReal) * (a : EReal)) = (((s j * a)⁻¹ : ℝ) : EReal) := fun j => by
      rw [inv_scaled (s j) a ha, if_neg (hne j)]
    have hT : (0 : ℝ) < ∑ j, (s j * a)⁻¹ :=
      Finset.sum_pos (fun j _ => inv_pos.mpr (mul_pos (hpos j) ha)) ⟨i, Finset.mem_univ i⟩
    have hS : (0 : ℝ) < ∑ j, (s j)⁻¹ :=
      Finset.sum_pos (fun j _ => inv_pos.mpr (hpos j)) ⟨i, Finset.mem_univ i⟩
    simp only [hterm]
    rw [coe_sum, Ideal.div_coe hT.ne', ← EReal.coe_mul]
    congr 1
    have hsum : (∑ j, (s j * a)⁻¹) = (∑ j, (s j)⁻¹) * a⁻¹ := by
      rw [Finset.sum_mul]
      exact Finset.sum_congr rfl fun j _ => mul_inv (s j) a
    rw [hsum, mul_inv (s i) a]
    have ha' : a ≠ 0 := ha.ne'
    have hS' : (∑ j, (s j)⁻¹) ≠ 0 := hS.ne'
    field_simp

/-- THE LAW: the normalised weights of distances scaled by `a` are those of distances scaled by `b`. -/
theorem weight_scale {ι : Type} [Fintype ι] (s : ι → ℝ) (hs : ∀ j, 0 ≤ s j) (a b : ℝ) (ha : 0 < a) (hb : 0 < b) (i : ι) :
    Ideal.div (Ideal.div 1 ((s i : EReal) * (a : EReal))) (∑ j, Ideal.div 1 ((s j : EReal) * (a : EReal)))
      = Ideal.div (Ideal.div 1 ((s i : EReal) * (b : EReal))) (∑ j, Ideal.div 1 ((s j : EReal) * (b : EReal))) :=
  (weight_closed s hs a ha i).trans (weight_closed s hs b hb i).symm

end Cert.NormLaw

end
-- ==== Proof.Consts.lean ====
import Idealize.ShloMosaic.PureOps.Ideal

/-!
# The float constants of the two programs, as extended reals

The patterns `0.0`, `1.0`, `2.0`, `512.0` denote the reals `0`, `1`, `2`, `512`. The kernel's scale
`0x3D3504F3` (the single-precision number nearest `1/√512`) denotes the dyadic rational `11863283 / 2^28`; all the
proof uses of it is that it is a positive real. The reference's divisor `√512` is a positive real too.
-/

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

/-- The kernel's scale, exactly. -/
theorem ofBits_scale : Ideal.ofBits .f32 0x3D3504F3#32 = ((11863283 / 268435456 : ℝ) : EReal) := by
  simp [Ideal.ofBits, Ideal.ieee, -EReal.coe_mul]; norm_num

/-- The kernel's scale is a positive real. -/
theorem scale_pos : ∃ a : ℝ, 0 < a ∧ Ideal.ofBits .f32 0x3D3504F3#32 = (a : EReal) :=
  ⟨11863283 / 268435456, by norm_num, ofBits_scale⟩

/-- The reference's divisor `√512`, taken on the extended reals, is the positive real `√512`. -/
theorem sqrt_512 : Ideal.sqrt (Ideal.ofBits .f32 0x44000000#32) = ((Real.sqrt 512 : ℝ) : EReal) := by
  rw [ofBits_512, Ideal.sqrt_coe, if_neg (by norm_num)]

theorem sqrt_512_pos : (0 : ℝ) < Real.sqrt 512 := Real.sqrt_pos.mpr (by norm_num)

end Cert.Consts

end
-- ==== Proof.Spec.lean ====
import proofs.«140579_j58884001628800_1_alg».proof.Proof.NormLaw
import proofs.«140579_j58884001628800_1_alg».proof.Proof.Consts
import Idealize.ShloMosaic.Lib.ValueIdx

/-!
# The specification: prototype weights of a bag of instances

Arguments: `X : [1, 65536, 512]` (the instances `x n`, one row each) and `P : [512, 512]` (the prototypes `p`).

* `dist p n = √(max (‖p‖² + ‖x n‖² − 2·⟨p, x n⟩) 0)`, the Euclidean distance by the expanded square;
* a *scaling* `sc` of the distances (the kernel multiplies by a constant, the reference divides by `√512`);
* `weight sc p n = (1 / sc (dist p n)) / ∑ n', 1 / sc (dist p n')`: the inverse distances normalised over the bag;
* the two results: the weights `[512, 65536]`, and `out n c = weight c n · x n c` of shape `[65536, 512]`
  (the number of prototypes equals the feature dimension, so prototype `c` weighs feature `c`).

When every entry of `X` and `P` is a real number, every distance is a nonnegative real, and the weights do not
depend on which positive scaling is used (`Cert.NormLaw.weight_scale`): `weight_scaleR_eq_scaleK`.
-/

noncomputable section

namespace Cert.Spec

open Idealize.ShloMosaic Idealize.ShloMosaic.ValueIdx

abbrev SX : Shape := ⟨3, ![1, 65536, 512]⟩
abbrev SP : Shape := ⟨2, ![512, 512]⟩
abbrev SW : Shape := ⟨2, ![512, 65536]⟩
abbrev SO : Shape := ⟨2, ![65536, 512]⟩

section

variable (X : SX.Idx → EReal) (P : SP.Idx → EReal)

/-- Feature `c` of instance `n`. -/
def xs (n : Fin 65536) (c : Fin 512) : EReal := X (ix3 (0 : Fin 1) n c)
/-- `‖x n‖²`. -/
def xsq (n : Fin 65536) : EReal := ∑ c : Fin 512, xs X n c * xs X n c
/-- `‖p‖²`. -/
def psq (p : Fin 512) : EReal := ∑ c : Fin 512, P (ix2 p c) * P (ix2 p c)
/-- `⟨p, x n⟩`. -/
def cross (p : Fin 512) (n : Fin 65536) : EReal := ∑ c : Fin 512, P (ix2 p c) * xs X n c
/-- The distance from prototype `p` to instance `n`. -/
def dist (p : Fin 512) (n : Fin 65536) : EReal :=
  Ideal.sqrt (max (psq P p + xsq X n - Ideal.ofBits .f32 0x40000000#32 * cross X P p n) 0)

/-- The normalised inverse distance, the distances rescaled by `sc`. -/
def weight (sc : EReal → EReal) (p : Fin 512) (n : Fin 65536) : EReal :=
  Ideal.div (Ideal.div 1 (sc (dist X P p n))) (∑ n' : Fin 65536, Ideal.div 1 (sc (dist X P p n')))

/-- The kernel's scaling: times the single-precision constant nearest `1/√512`. -/
def scaleK (d : EReal) : EReal := d * Ideal.ofBits .f32 0x3D3504F3#32
/-- The reference's scaling: divided by `√512`. -/
def scaleR (d : EReal) : EReal := Ideal.div d (Ideal.sqrt (Ideal.ofBits .f32 0x44000000#32))

/-- The weights as an array `[512, 65536]`. -/
def weights (sc : EReal → EReal) : SW.Idx → EReal :=
  fun i => weight X P sc ⟨(i 0).val, (i 0).isLt⟩ ⟨(i 1).val, (i 1).isLt⟩
/-- The weighted instances as an array `[65536, 512]`. -/
def weighted (sc : EReal → EReal) : SO.Idx → EReal :=
  fun i => weight X P sc ⟨(i 1).val, (i 1).isLt⟩ ⟨(i 0).val, (i 0).isLt⟩ * xs X ⟨(i 0).val, (i 0).isLt⟩ ⟨(i 1).val, (i 1).isLt⟩

end

/-! ## Finite inputs: every distance is a nonnegative real -/

theorem max_coe_zero (r : ℝ) : max (r : EReal) 0 = ((max r 0 : ℝ) : EReal) := by
  rcases le_total r 0 with h | h
  · rw [max_eq_right h, max_eq_right (show (r : EReal) ≤ 0 from EReal.coe_le_coe_iff.mpr h)]; rfl
  · rw [max_eq_left h, max_eq_left (show (0 : EReal) ≤ (r : EReal) from EReal.coe_le_coe_iff.mpr h)]

/-- A finite sum of products of reals, on the extended reals, is the real sum of products. -/
theorem sum_mul_coe {ι : Type} [Fintype ι] (f g : ι → ℝ) :
    (∑ j, (f j : EReal) * (g j : EReal)) = ((∑ j, f j * g j : ℝ) : EReal) := by
  rw [← NormLaw.coe_sum]
  exact Finset.sum_congr rfl fun j _ => (EReal.coe_mul (f j) (g j)).symm

theorem dist_real (X : SX.Idx → EReal) (P : SP.Idx → EReal) (hX : ∀ i, ∃ r : ℝ, X i = r) (hP : ∀ i, ∃ r : ℝ, P i = r)
    (p : Fin 512) (n : Fin 65536) : ∃ σ : ℝ, 0 ≤ σ ∧ dist X P p n = σ := by
  choose x hx using hX
  choose q hq using hP
  have h1 : xsq X n = ((∑ c : Fin 512, x (ix3 (0 : Fin 1) n c) * x (ix3 (0 : Fin 1) n c) : ℝ) : EReal) := by
    unfold xsq xs; simp only [hx]; exact sum_mul_coe _ _
  have h2 : psq P p = ((∑ c : Fin 512, q (ix2 p c) * q (ix2 p c) : ℝ) : EReal) := by
    unfold psq; simp only [hq]; exact sum_mul_coe _ _
  have h3 : cross X P p n = ((∑ c : Fin 512, q (ix2 p c) * x (ix3 (0 : Fin 1) n c) : ℝ) : EReal) := by
    unfold cross xs; simp only [hx, hq]; exact sum_mul_coe _ _
  refine ⟨Real.sqrt (max ((∑ c : Fin 512, q (ix2 p c) * q (ix2 p c)) + (∑ c : Fin 512, x (ix3 (0 : Fin 1) n c) * x (ix3 (0 : Fin 1) n c))
      - 2 * (∑ c : Fin 512, q (ix2 p c) * x (ix3 (0 : Fin 1) n c))) 0), Real.sqrt_nonneg _, ?_⟩
  unfold dist
  rw [h1, h2, h3, Consts.ofBits_two, ← EReal.coe_add, ← EReal.coe_mul, ← EReal.coe_sub, max_coe_zero, Ideal.sqrt_coe,
    if_neg (not_lt.mpr (le_max_right _ _))]

/-- THE BRIDGE LAW. On finite inputs the reference's weights (distances divided by `√512`) are the kernel's
    (distances times the constant): the scale cancels in the normalisation. -/
theorem weight_scaleR_eq_scaleK (X : SX.Idx → EReal) (P : SP.Idx → EReal) (hX : ∀ i, ∃ r : ℝ, X i = r)
    (hP : ∀ i, ∃ r : ℝ, P i = r) (p : Fin 512) (n : Fin 65536) :
    weight X P scaleR p n = weight X P scaleK p n := by
  choose σ hσ0 hσ using fun n' => dist_real X P hX hP p n'
  obtain ⟨a, ha, hA⟩ := Consts.scale_pos
  unfold weight scaleR scaleK
  simp only [hσ, hA, Consts.sqrt_512, Ideal.div_coe Consts.sqrt_512_pos.ne']
  exact NormLaw.weight_scale σ hσ0 (1 / Real.sqrt 512) a (one_div_pos.mpr Consts.sqrt_512_pos) ha n

theorem weights_scaleR_eq_scaleK (X : SX.Idx → EReal) (P : SP.Idx → EReal) (hX : ∀ i, ∃ r : ℝ, X i = r)
    (hP : ∀ i, ∃ r : ℝ, P i = r) : weights X P scaleR = weights X P scaleK :=
  funext fun _ => weight_scaleR_eq_scaleK X P hX hP _ _

theorem weighted_scaleR_eq_scaleK (X : SX.Idx → EReal) (P : SP.Idx → EReal) (hX : ∀ i, ∃ r : ℝ, X i = r)
    (hP : ∀ i, ∃ r : ℝ, P i = r) : weighted X P scaleR = weighted X P scaleK := by
  funext i
  unfold weighted
  rw [weight_scaleR_eq_scaleK X P hX hP]

end Cert.Spec

end
-- ==== Proof.RefSide.lean ====
import proofs.«140579_j58884001628800_1_alg».proof.Proof.Gen.ReferenceIdeal.Read
import proofs.«140579_j58884001628800_1_alg».proof.Proof.Spec

/-!
# The reference computes the specification (with the distances divided by `√512`)

Stage by stage, each host operation's result read at an index is the matching quantity of `Cert.Spec`:
the reshaped instances, the squared norms (host sums from `0`), the inner products (the host's contraction),
the distance, its inverse, the bag sum, the weights, and the weights transposed times the instances.
No finiteness is used here.
-/

noncomputable section

namespace Cert.RefSide

open Cert.ReferenceIdeal Cert.ReferenceIdeal.Read Idealize.ShloMosaic Idealize.ShloMosaic.ValueIdx Cert.Spec

variable (X : (⟨S1x65536x512, .f32⟩ : BufTy).Contents (Elt Ideal)) (P : (⟨S512x512, .f32⟩ : BufTy).Contents (Elt Ideal))

/-- The reshape `[1, 65536, 512] → [65536, 512]` read at `(n, c)` is feature `c` of instance `n`. -/
theorem v0_eq (j : S65536x512.Idx) :
    val_main_v0 (F := Ideal) X j = xs X ⟨(j 0).val, (j 0).isLt⟩ ⟨(j 1).val, (j 1).isLt⟩ := by
  rw [val_main_v0_apply]
  unfold xs
  refine congrArg X (funext fun a => Fin.ext ?_)
  have h0 : (j 0).val < 65536 := (j 0).isLt
  have h1 : (j 1).val < 512 := (j 1).isLt
  match a with
  | ⟨0, _⟩ => rfl
  | ⟨1, _⟩ => show ((j 0).val * 512 + (j 1).val) / 512 % 65536 = (j 0).val; omega
  | ⟨2, _⟩ => show ((j 0).val * 512 + (j 1).val) % 512 = (j 1).val; omega

/-- The instances' squared norms. -/
theorem v2_eq (i : S65536.Idx) : val_main_v2 (F := Ideal) X i = xsq X ⟨(i 0).val, (i 0).isLt⟩ := by
  rw [val_main_v2_apply]
  show Ideal.ofBits .f32 0x00000000#32 + _ = _
  rw [Consts.ofBits_zero, zero_add]
  unfold xsq
  refine Finset.sum_congr rfl fun k _ => ?_
  rw [val_main_v1_apply]
  show val_main_v0 (F := Ideal) X _ * val_main_v0 (F := Ideal) X _ = _
  rw [v0_eq]

/-- The prototypes' squared norms. -/
theorem v4_eq (i : S512.Idx) : val_main_v4 (F := Ideal) P i = psq P ⟨(i 0).val, (i 0).isLt⟩ := by
  rw [val_main_v4_apply]
  show Ideal.ofBits .f32 0x00000000#32 + _ = _
  rw [Consts.ofBits_zero, zero_add]
  unfold psq
  refine Finset.sum_congr rfl fun k _ => ?_
  rw [val_main_v3_apply]
  show P _ * P _ = _
  refine congrArg₂ (· * ·) (congrArg P ?_) (congrArg P ?_) <;>
    exact funext fun a => Fin.ext (by match a with | ⟨0, _⟩ => rfl | ⟨1, _⟩ => rfl)

/-- The inner products. -/
theorem v5_eq (i : S512x65536.Idx) :
    val_main_v5 (F := Ideal) X P i = cross X P ⟨(i 0).val, (i 0).isLt⟩ ⟨(i 1).val, (i 1).isLt⟩ := by
  rw [val_main_v5_apply]
  unfold cross
  refine Finset.sum_congr rfl fun k _ => ?_
  rw [v0_eq]
  refine congrArg₂ (· * ·) (congrArg P ?_) rfl
  exact funext fun a => Fin.ext (by match a with | ⟨0, _⟩ => rfl | ⟨1, _⟩ => rfl)

/-- The distances before scaling. -/
theorem v16_eq (i : S512x65536.Idx) :
    val_main_v16 (F := Ideal) X P i = dist X P ⟨(i 0).val, (i 0).isLt⟩ ⟨(i 1).val, (i 1).isLt⟩ := by
  rw [val_main_v16_apply, val_main_v15_apply, val_main_v13_apply, val_main_v10_apply, val_main_v8_apply, val_main_v6_apply,
    val_main_v9_apply, val_main_v7_apply, val_main_v12_apply, val_main_v11_apply, val_main_v14_apply, v4_eq, v2_eq, v5_eq]
  show Ideal.sqrt (max (_ + _ - Ideal.ofBits .f32 0x40000000#32 * _) (Ideal.ofBits .f32 0x00000000#32)) = _
  rw [Consts.ofBits_zero]
  rfl

/-- The inverse scaled distances. -/
theorem v21_eq (i : S512x65536.Idx) :
    val_main_v21 (F := Ideal) X P i = Ideal.div 1 (scaleR (dist X P ⟨(i 0).val, (i 0).isLt⟩ ⟨(i 1).val, (i 1).isLt⟩)) := by
  rw [val_main_v21_apply, val_main_v20_apply, val_main_v19_apply, val_main_v18_apply, v16_eq]
  show Ideal.div (Ideal.ofBits .f32 0x3F800000#32) (Ideal.div _ (Ideal.sqrt (Ideal.ofBits .f32 0x44000000#32))) = _
  rw [Consts.ofBits_one]
  rfl

/-- The bag sums. -/
theorem v22_eq (i : S512.Idx) :
    val_main_v22 (F := Ideal) X P i = ∑ n : Fin 65536, Ideal.div 1 (scaleR (dist X P ⟨(i 0).val, (i 0).isLt⟩ n)) := by
  rw [val_main_v22_apply]
  show Ideal.ofBits .f32 0x00000000#32 + _ = _
  rw [Consts.ofBits_zero, zero_add]
  refine Finset.sum_congr rfl fun k _ => ?_
  rw [v21_eq]

/-- The reference's second result: the weights. -/
theorem v25_eq : val_main_v25 (F := Ideal) X P = weights X P scaleR := by
  funext i
  rw [val_main_v25_apply, val_main_v24_apply, val_main_v23_apply, v21_eq, v22_eq]
  rfl

/-- The reference's first result: the weights transposed, times the instances. -/
theorem v27_eq : val_main_v27 (F := Ideal) X P = weighted X P scaleR := by
  funext i
  rw [val_main_v27_apply, val_main_v26_apply, v25_eq, v0_eq]
  rfl

end Cert.RefSide

end
-- ==== Proof.Finite.lean ====
import proofs.«140579_j58884001628800_1_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

/-!
# The precondition says every input entry is a real number

`finite_inputs` is `all (|x| < +∞) ∧ all (|p| < +∞)`. On the extended reals `|x| = max x (−x)` is `+∞` exactly at
the two infinities, so the predicate being all ones means every entry of both arrays is a real.
-/

noncomputable section

namespace Cert.Finite

open Idealize.ShloMosaic Cert.Pre_finite_inputs

/-- An extended real whose absolute value is below `+∞` is a real. -/
theorem real_of_abs_lt_top (x : EReal) (h : max x (-x) < ⊤) : ∃ r : ℝ, x = r := by
  induction x using EReal.rec with
  | bot => exact absurd h (by simp)
  | top => exact absurd h (by simp)
  | coe r => exact ⟨r, rfl⟩

theorem ofBits_inf : Ideal.ofBits .f32 0x7F800000#32 = ⊤ := by
  simp [Ideal.ofBits, Ideal.ieee]

instance : Subsingleton S_.Idx := ⟨fun a b => funext fun d => d.elim0⟩

/-- One comparison bit of the predicate, decoded. -/
theorem real_of_bit (x : EReal) (h : FloatOps.cmpf (F := Ideal) (φ := .f32) .olt (FloatOps.hostAbsf (F := Ideal) (φ := .f32) x) (Ideal.ofBits .f32 0x7F800000#32) = 1#1) :
    ∃ r : ℝ, x = r := by
  refine real_of_abs_lt_top x ?_
  rw [ofBits_inf] at h
  by_contra hn
  have : Ideal.cmp .olt (max x (-x)) ⊤ = 0#1 := by
    unfold Ideal.cmp
    simp [hn]
  exact absurd (h.symm.trans this) (by decide)

theorem finite_of_pre [Facts] (X : FVec Ideal S1x65536x512 .f32) (P : FVec Ideal S512x512 .f32)
    (h : fn (F := Ideal) X P = fun _ => 1#1) : (∀ i, ∃ r : ℝ, X i = r) ∧ (∀ i, ∃ r : ℝ, P i = r) := by
  have h0 := congrFun h ValueIdx.ix0
  dsimp only [fn] at h0
  obtain ⟨hA, hB⟩ := IntOp.andi_eq_one.mp h0
  refine ⟨fun i => ?_, fun i => ?_⟩
  · have e := Host.reduce_andi_all _ _ _ _ _ hA i
    refine real_of_bit (X i) ?_
    rw [← e]
    show _ = FloatOps.cmpf (F := Ideal) .olt (FloatOps.hostAbsf (X i)) (broadcastInDim S1x65536x512 ![] Facts.bcast_S_S1x65536x512 (constant (F := Ideal) S_ .f32 0x7F800000#32) i)
    rw [broadcastInDim_apply _ Facts.bcast_S_S1x65536x512 _ i ValueIdx.ix0 (fun a => a.elim0)]
    rfl
  · have e := Host.reduce_andi_all _ _ _ _ _ hB i
    refine real_of_bit (P i) ?_
    rw [← e]
    show _ = FloatOps.cmpf (F := Ideal) .olt (FloatOps.hostAbsf (P i)) (broadcastInDim S512x512 ![] Facts.bcast_S_S512x512 (constant (F := Ideal) S_ .f32 0x7F800000#32) i)
    rw [broadcastInDim_apply _ Facts.bcast_S_S512x512 _ i ValueIdx.ix0 (fun a => a.elim0)]
    rfl

end Cert.Finite

end
-- ==== Proof.WordSumRegion.lean ====
import proofs.«140579_j58884001628800_1_alg».proof.Proof.Gen.Kernel.Launch
import proofs.«140579_j58884001628800_1_alg».proof.Proof.Gen.Kernel.Skeleton
import proofs.«140579_j58884001628800_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The word-level program — The first kernel, case by case

The first kernel keeps a running column of bag sums in a scratch buffer that lives across grid points. Its body
branches twice on the grid position: at the first point it resets the scratch to zero before adding; at the last point
it copies the scratch into the output's buffer after adding. So a point is in one of three cases:

* FIRST (point 0): reset, add this block's row sums; the output's buffer untouched;
* MIDDLE (points 1 … 62): add this block's row sums to what the point before left; the output's buffer untouched;
* LAST (point 63): add, then store the scratch into the output's buffer.

Each case's run is stated on whole buffers: the two inputs at their contents, the scratch at anything (FIRST) or at the
previous contents (MIDDLE, LAST), and gives back the scratch — and in LAST the output — with a list of written pieces
that the run itself finds.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition, from the grid position: "this is point 0". -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- The second branch's condition: "this is point 63". -/
abbrev condLast (i : grid0.Coords) : Prop := k0_cond2 i = 1#1
theorem hcondLast : ∀ t : Fin cfg0.N, condLast (grid0.coords t) ↔ t.val = 63 :=
  (by decide +kernel : ∀ t : Fin grid0.N, condLast (grid0.coords t) ↔ t.val = 63)

set_option maxHeartbeats 4000000 in
/-- FIRST. -/
noncomputable def runFirst (c : Dev nD) (i : grid0.Coords)
    (arg1 : Memref sig .tc .vmem S512x512 .f32) (harg1 : arg1.IsWhole) (arg2 : Memref sig .tc .vmem S1024x512 .f32) (harg2 : arg2.IsWhole)
    (arg3 : Memref sig .tc .vmem S512x1 .f32) (harg3 : arg3.IsWhole) (arg4 : Memref sig .tc .vmem S512x1 .f32) (harg4 : arg4.IsWhole)
    (hc0 : condFirst i) (hc1 : ¬condLast i) (x0 : Vec F S512x512 .f32) (x1 : Vec F S1024x512 .f32) :
    { LS : List (View.Piece (Elt F) S512x1 .f32) //
      ∀ (xi2 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare xi2
            ∗ (∃ d, owns (c : Thread nD τ) arg4 fullShare d)
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS)) -∗ K ⟨⟩))
          ⊢ wp frame (wpE (defs₀ (F := F)) Variants.none c none) E (cc0__sum_inv_kernel i arg1 harg1 arg2 harg2 arg3 harg3 arg4 harg4) K } := by
  refine ⟨?_, fun xi2 E K => ?run⟩
  case run =>
    simp only [cc0__sum_inv_kernel_eq_skeleton]; unfold cc0__sum_inv_kernel_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 4000000 in
/-- MIDDLE. -/
noncomputable def runMiddle (c : Dev nD) (i : grid0.Coords)
    (arg1 : Memref sig .tc .vmem S512x512 .f32) (harg1 : arg1.IsWhole) (arg2 : Memref sig .tc .vmem S1024x512 .f32) (harg2 : arg2.IsWhole)
    (arg3 : Memref sig .tc .vmem S512x1 .f32) (harg3 : arg3.IsWhole) (arg4 : Memref sig .tc .vmem S512x1 .f32) (harg4 : arg4.IsWhole)
    (hc0 : ¬condFirst i) (hc1 : ¬condLast i) (x0 : Vec F S512x512 .f32) (x1 : Vec F S1024x512 .f32) (xs : Vec F S512x1 .f32) :
    { LS : List (View.Piece (Elt F) S512x1 .f32) //
      ∀ (xi2 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare xi2
            ∗ owns (c : Thread nD τ) arg4 fullShare xs
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS)) -∗ K ⟨⟩))
          ⊢ wp frame (wpE (defs₀ (F := F)) Variants.none c none) E (cc0__sum_inv_kernel i arg1 harg1 arg2 harg2 arg3 harg3 arg4 harg4) K } := by
  refine ⟨?_, fun xi2 E K => ?run⟩
  case run =>
    simp only [cc0__sum_inv_kernel_eq_skeleton]; unfold cc0__sum_inv_kernel_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 4000000 in
/-- LAST. -/
noncomputable def runLast (c : Dev nD) (i : grid0.Coords)
    (arg1 : Memref sig .tc .vmem S512x512 .f32) (harg1 : arg1.IsWhole) (arg2 : Memref sig .tc .vmem S1024x512 .f32) (harg2 : arg2.IsWhole)
    (arg3 : Memref sig .tc .vmem S512x1 .f32) (harg3 : arg3.IsWhole) (arg4 : Memref sig .tc .vmem S512x1 .f32) (harg4 : arg4.IsWhole)
    (hc0 : ¬condFirst i) (hc1 : condLast i) (x0 : Vec F S512x512 .f32) (x1 : Vec F S1024x512 .f32) (xs : Vec F S512x1 .f32) :
    Σ' (LO : List (View.Piece (Elt F) S512x1 .f32)), { LS : List (View.Piece (Elt F) S512x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f LO)
                ∗ (∃ f, arg4.view.loc (c : Thread nD τ) ↦[arg4.view.set]{fullShare} arg4.view.writes (Elt F) f LS)) -∗ K ⟨⟩))
          ⊢ wp frame (wpE (defs₀ (F := F)) Variants.none c none) E (cc0__sum_inv_kernel i arg1 harg1 arg2 harg2 arg3 harg3 arg4 harg4) K } := by
  refine ⟨?_, ?_, fun E K => ?run⟩
  case run =>
    simp only [cc0__sum_inv_kernel_eq_skeleton]; unfold cc0__sum_inv_kernel_skel
    simp only [k0_part1_eq_skeleton]
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

end Cert.Kernel.Hand

end
-- ==== Proof.WordSumData.lean ====
import proofs.«140579_j58884001628800_1_alg».proof.Proof.Gen.Kernel.Launch
import proofs.«140579_j58884001628800_1_alg».proof.Proof.Gen.Kernel.Skeleton
import proofs.«140579_j58884001628800_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«140579_j58884001628800_1_alg».proof.Proof.WordSumRegion

/-!
# The word-level program — The first kernel's proof data: a running sum carried in scratch

`accAt n` is what the scratch column holds after point `n`: the FIRST case's result at point 0, then each later
point's result over what the point before left (`accAt (n-1)`). The output's buffer is untouched at every point
but the last, where it receives the scratch (`outAt`). The region's invariant before point `n+1` holds the
scratch at `accAt n`; before point 0 it is the plain one (the scratch at anything). Whatever else the plain
invariant holds besides the scratch rides along unopened.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
theorem liveAt0_2 : ∀ t : Fin cfg0.N, condLast (grid0.coords t) → cfg0.idle 2 (grid0.coords t) = false := by decide +kernel

/-! ## The buffers the body is called with -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
/-- The scratch column. -/
abbrev scM0 : Memref sig .tc .vmem S512x1 .f32 := Memref.whole cc0_scratch0
abbrev VS0 : View sig .tc .vmem S512x1 .f32 := scM0.view
abbrev VO0 : View sig .tc .vmem S512x1 .f32 := (Memref.whole cc0_stg2_0 : Memref sig .tc .vmem S512x1 .f32).view

theorem notLast_of_first {t : Fin cfg0.N} (h0 : t.val = 0) : ¬condLast (grid0.coords t) :=
  fun h => by have := (hcondLast t).mp h; omega

/-! ## What each case leaves -/

/-- The scratch after the FIRST case. -/
def sFirst (c : Dev nD) (t : Fin cfg0.N) (h0 : t.val = 0) (x0 : Vec F S512x512 .f32) (x1 : Vec F S1024x512 .f32) : Vec F S512x1 .f32 :=
  VS0.read (Elt F) (VS0.writes (Elt F) VS0.junk
    (runFirst c (grid0.coords t) (ms0_0 t) (hs0_0 t) (ms0_1 t) (hs0_1 t) (ms0_2 t) (hs0_2 t) scM0 (Memref.isWhole_whole _)
      ((hcondFirst t).mpr h0) (notLast_of_first h0) x0 x1).1)

theorem coverFirst (c : Dev nD) (t : Fin cfg0.N) (h0 : t.val = 0) (x0 : Vec F S512x512 .f32) (x1 : Vec F S1024x512 .f32) (y : S512x1.Idx) :
    ∃ pc ∈ (runFirst c (grid0.coords t) (ms0_0 t) (hs0_0 t) (ms0_1 t) (hs0_1 t) (ms0_2 t) (hs0_2 t) scM0 (Memref.isWhole_whole _)
      ((hcondFirst t).mpr h0) (notLast_of_first h0) x0 x1).1, y ∈ pc.1.set :=
  View.cover_of_tiledL _ S512x1.size (by sl_kernel_rfl) y

/-- The scratch after a MIDDLE case, over the previous contents `xs`. -/
def sMiddle (c : Dev nD) (t : Fin cfg0.N) (h0 : t.val ≠ 0) (hl : t.val ≠ 63) (x0 : Vec F S512x512 .f32) (x1 : Vec F S1024x512 .f32)
    (xs : Vec F S512x1 .f32) : Vec F S512x1 .f32 :=
  VS0.read (Elt F) (VS0.writes (Elt F) VS0.junk
    (runMiddle c (grid0.coords t) (ms0_0 t) (hs0_0 t) (ms0_1 t) (hs0_1 t) (ms0_2 t) (hs0_2 t) scM0 (Memref.isWhole_whole _)
      (fun h => h0 ((hcondFirst t).mp h)) (fun h => hl ((hcondLast t).mp h)) x0 x1 xs).1)

theorem coverMiddle (c : Dev nD) (t : Fin cfg0.N) (h0 : t.val ≠ 0) (hl : t.val ≠ 63) (x0 : Vec F S512x512 .f32) (x1 : Vec F S1024x512 .f32)
    (xs : Vec F S512x1 .f32) (y : S512x1.Idx) :
    ∃ pc ∈ (runMiddle c (grid0.coords t) (ms0_0 t) (hs0_0 t) (ms0_1 t) (hs0_1 t) (ms0_2 t) (hs0_2 t) scM0 (Memref.isWhole_whole _)
      (fun h => h0 ((hcondFirst t).mp h)) (fun h => hl ((hcondLast t).mp h)) x0 x1 xs).1, y ∈ pc.1.set :=
  View.cover_of_tiledL _ S512x1.size (by sl_kernel_rfl) y

/-- The scratch after the LAST case. -/
def sLast (c : Dev nD) (t : Fin cfg0.N) (h0 : t.val ≠ 0) (hl : t.val = 63) (x0 : Vec F S512x512 .f32) (x1 : Vec F S1024x512 .f32)
    (xs : Vec F S512x1 .f32) : Vec F S512x1 .f32 :=
  VS0.read (Elt F) (VS0.writes (Elt F) VS0.junk
    (runLast c (grid0.coords t) (ms0_0 t) (hs0_0 t) (ms0_1 t) (hs0_1 t) (ms0_2 t) (hs0_2 t) scM0 (Memref.isWhole_whole _)
      (fun h => h0 ((hcondFirst t).mp h)) ((hcondLast t).mpr hl) x0 x1 xs).2.1)

theorem coverLastS (c : Dev nD) (t : Fin cfg0.N) (h0 : t.val ≠ 0) (hl : t.val = 63) (x0 : Vec F S512x512 .f32) (x1 : Vec F S1024x512 .f32)
    (xs : Vec F S512x1 .f32) (y : S512x1.Idx) :
    ∃ pc ∈ (runLast c (grid0.coords t) (ms0_0 t) (hs0_0 t) (ms0_1 t) (hs0_1 t) (ms0_2 t) (hs0_2 t) scM0 (Memref.isWhole_whole _)
      (fun h => h0 ((hcondFirst t).mp h)) ((hcondLast t).mpr hl) x0 x1 xs).2.1, y ∈ pc.1.set :=
  View.cover_of_tiledL _ S512x1.size (by sl_kernel_rfl) y

/-- The output's buffer after the LAST case. -/
def oLast (c : Dev nD) (t : Fin cfg0.N) (h0 : t.val ≠ 0) (hl : t.val = 63) (x0 : Vec F S512x512 .f32) (x1 : Vec F S1024x512 .f32)
    (xs : Vec F S512x1 .f32) : Vec F S512x1 .f32 :=
  VO0.read (Elt F) (VO0.writes (Elt F) VO0.junk
    (runLast c (grid0.coords t) (ms0_0 t) (hs0_0 t) (ms0_1 t) (hs0_1 t) (ms0_2 t) (hs0_2 t) scM0 (Memref.isWhole_whole _)
      (fun h => h0 ((hcondFirst t).mp h)) ((hcondLast t).mpr hl) x0 x1 xs).1)

theorem coverLastO (c : Dev nD) (t : Fin cfg0.N) (h0 : t.val ≠ 0) (hl : t.val = 63) (x0 : Vec F S512x512 .f32) (x1 : Vec F S1024x512 .f32)
    (xs : Vec F S512x1 .f32) (y : S512x1.Idx) :
    ∃ pc ∈ (runLast c (grid0.coords t) (ms0_0 t) (hs0_0 t) (ms0_1 t) (hs0_1 t) (ms0_2 t) (hs0_2 t) scM0 (Memref.isWhole_whole _)
      (fun h => h0 ((hcondFirst t).mp h)) ((hcondLast t).mpr hl) x0 x1 xs).1, y ∈ pc.1.set :=
  View.cover_of_tiledL _ S512x1.size (by sl_kernel_rfl) y

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- THE RUNNING SUM: the scratch column after point `n`. -/
def accAt (c : Dev nD) : (n : ℕ) → n < cfg0.N → Vec F S512x1 .f32
  | 0, hn => sFirst c ⟨0, hn⟩ rfl (iblk0 V c 0 ⟨0, hn⟩) (iblk0 V c 1 ⟨0, hn⟩)
  | n + 1, hn =>
    if hl : n + 1 = 63 then
      sLast c ⟨n + 1, hn⟩ (Nat.succ_ne_zero n) hl (iblk0 V c 0 ⟨n + 1, hn⟩) (iblk0 V c 1 ⟨n + 1, hn⟩) (accAt c n (Nat.lt_of_succ_lt hn))
    else
      sMiddle c ⟨n + 1, hn⟩ (Nat.succ_ne_zero n) hl (iblk0 V c 0 ⟨n + 1, hn⟩) (iblk0 V c 1 ⟨n + 1, hn⟩) (accAt c n (Nat.lt_of_succ_lt hn))

theorem accAt_first (c : Dev nD) (t : Fin cfg0.N) (h0 : t.val = 0) :
    accAt V c t.val t.isLt = sFirst c t h0 (iblk0 V c 0 t) (iblk0 V c 1 t) := by
  obtain ⟨n, hn⟩ := t
  cases n with
  | zero => rfl
  | succ n => exact absurd h0 (Nat.succ_ne_zero n)

theorem accAt_middle (c : Dev nD) (t : Fin cfg0.N) (h0 : t.val ≠ 0) (hl : t.val ≠ 63) :
    accAt V c t.val t.isLt = sMiddle c t h0 hl (iblk0 V c 0 t) (iblk0 V c 1 t)
      (accAt V c (t.val - 1) (Nat.lt_of_le_of_lt (Nat.sub_le _ _) t.isLt)) := by
  obtain ⟨n, hn⟩ := t
  cases n with
  | zero => exact absurd rfl h0
  | succ n => exact (dif_neg hl).trans rfl

theorem accAt_last (c : Dev nD) (t : Fin cfg0.N) (h0 : t.val ≠ 0) (hl : t.val = 63) :
    accAt V c t.val t.isLt = sLast c t h0 hl (iblk0 V c 0 t) (iblk0 V c 1 t)
      (accAt V c (t.val - 1) (Nat.lt_of_le_of_lt (Nat.sub_le _ _) t.isLt)) := by
  obtain ⟨n, hn⟩ := t
  cases n with
  | zero => exact absurd rfl h0
  | succ n => exact (dif_pos hl).trans rfl

/-- The output's buffer after point `t`: the scratch's copy at the last point; nothing the pipeline ever consults
    elsewhere (the window is idle there and not written back). -/
def outAt (c : Dev nD) (t : Fin cfg0.N) : Vec F S512x1 .f32 :=
  if hl : t.val = 63 then
    oLast c t (by omega) hl (iblk0 V c 0 t) (iblk0 V c 1 t) (accAt V c (t.val - 1) (Nat.lt_of_le_of_lt (Nat.sub_le _ _) t.isLt))
  else VO0.read (Elt F) (VO0.writes (Elt F) VO0.junk [])

theorem outAt_last (c : Dev nD) (t : Fin cfg0.N) (h0 : t.val ≠ 0) (hl : t.val = 63) :
    outAt V c t = oLast c t h0 hl (iblk0 V c 0 t) (iblk0 V c 1 t) (accAt V c (t.val - 1) (Nat.lt_of_le_of_lt (Nat.sub_le _ _) t.isLt)) := by
  unfold outAt; exact dif_pos hl

/-! ## The invariant -/

/-- What the plain invariant holds besides the scratch column, unopened. -/
def restOf (c : Dev nD) : sProp 𝕄 :=
  iprop((∃ d, owns (c : Thread nD τ) scM0 fullShare d) -∗ (Pipeline.ΦA spec0 c : sProp 𝕄))

theorem scratch_of_loc (c : Dev nD) :
    (iprop(∃ f : Buf (Elt F) ((c : Thread nD τ).loc cc0_scratch0), ((c : Thread nD τ).loc cc0_scratch0) ↦{fullShare} f) : sProp 𝕄)
      ⊢ iprop(∃ d, owns (c : Thread nD τ) scM0 fullShare d) := by
  simp only [scM0, owns_whole]; exact .rfl

theorem loc_of_scratch (c : Dev nD) :
    (iprop(∃ d, owns (c : Thread nD τ) scM0 fullShare d) : sProp 𝕄)
      ⊢ iprop(∃ f : Buf (Elt F) ((c : Thread nD τ).loc cc0_scratch0), ((c : Thread nD τ).loc cc0_scratch0) ↦{fullShare} f) := by
  simp only [scM0, owns_whole]; exact .rfl

/-- The plain invariant gives up the scratch column (at some contents) and keeps the rest. -/
theorem phiA_split (c : Dev nD) :
    (Pipeline.ΦA spec0 c : sProp 𝕄) ⊢ iprop((∃ d, owns (c : Thread nD τ) scM0 fullShare d) ∗ restOf (F := F) c) := by
  unfold restOf Pipeline.ΦA
  rw [scopedRest0_eq]
  iintro ⟨⟨HS, HR⟩, Hg⟩
  isplitl [HS]
  · iapply (scratch_of_loc (F := F) c); iexact HS
  iintro HS'
  isplitr [Hg]
  · isplitl [HS']
    · iapply (loc_of_scratch (F := F) c); iexact HS'
    iexact HR
  iexact Hg

/-- The scratch column, at any contents, beside the rest is the plain invariant again. -/
theorem phiA_join (c : Dev nD) :
    iprop((∃ d, owns (c : Thread nD τ) scM0 fullShare d) ∗ restOf (F := F) c) ⊢ (Pipeline.ΦA spec0 c : sProp 𝕄) := by
  unfold restOf
  iintro ⟨HS, HW⟩
  iapply HW
  iexact HS

/-- The region's invariant before position `n`. -/
def PhiS (c : Dev nD) : (n : ℕ) → n ≤ cfg0.N → sProp 𝕄
  | 0, _ => Pipeline.ΦA spec0 c
  | n + 1, hn => iprop(owns (c : Thread nD τ) scM0 fullShare (accAt V c n hn) ∗ restOf (F := F) c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0 fullShare (accAt V c n hn) ∗ restOf (F := F) c) := rfl

theorem PhiS_pos (c : Dev nD) (n : ℕ) (h : n ≤ cfg0.N) (hz : n ≠ 0) :
    PhiS V c n h = iprop(owns (c : Thread nD τ) scM0 fullShare (accAt V c (n - 1) (by omega)) ∗ restOf (F := F) c) := by
  cases n with
  | zero => exact absurd rfl hz
  | succ n => rfl

/-! ## The proof data -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end

end Cert.Kernel.Hand

end
-- ==== Proof.WordSumBody.lean ====
import proofs.«140579_j58884001628800_1_alg».proof.Proof.Gen.Kernel.Launch
import proofs.«140579_j58884001628800_1_alg».proof.Proof.Gen.Kernel.Skeleton
import proofs.«140579_j58884001628800_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«140579_j58884001628800_1_alg».proof.Proof.WordSumData

/-!
# The word-level program — The first kernel's body obligation

At every point the body, called on the windows' current buffers and the scratch column, runs and leaves what the
proof data says: the inputs' buffers at their blocks, the scratch at the running sum `accAt`, the output's buffer
untouched except at the last point. Three cases by the grid position. The invariant hands the body the scratch — at
anything before point 0, at the previous running sum afterwards — and takes it back at the new one.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 64 := lt_of_lt_of_eq t.isLt (show cfg0.N = 64 from N_0)
  by_cases h0 : t.val = 0
  · -- the first point
    have hnl : ¬condLast (grid0.coords t) := notLast_of_first h0
    rw [Dat.leavesExact_idle (dat0 V c) 2 t (idleAt0_2 t hnl) (noFlush0_2 t hnl)]
    rw [accAt_first V c t h0]
    unfold sFirst
    rw [PhiS_castSucc V c t, PhiS_zero V c _ _ h0]
    iintro ⟨HΦ, Ho, ⟨%d0, H0⟩, ⟨%d1, H1⟩, ⟨%d2, H2⟩⟩
    ihave HΦ' := (phiA_split (F := F) c) $$ HΦ
    icases HΦ' with ⟨HS, HR⟩
    iapply ((runFirst c (grid0.coords t) _ _ _ _ _ _ _ _ ((hcondFirst t).mpr h0) hnl (iblk0 V c 0 t) (iblk0 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR]
    · isplitl [HS]
      · unfold owns; iexists _; isplitr
        swap; · iexact HS
        ipureintro; exact View.read_writes_of_cover _ _ _ _ _ (coverFirst c t h0 _ _)
      iexact HR
    isplitl [Ho]; · iexact Ho
    isplitl [H0]; · iexact H0
    isplitl [H1]; · iexact H1
    iexists _; iexact H2
  · by_cases hl : t.val = 63
    · -- the last point
      have hlc : condLast (grid0.coords t) := (hcondLast t).mpr hl
      rw [show (dat0 V c).leavesExact 2 t = owns (c : Thread nD τ) (ms0_2 t) fullShare ((dat0 V c).after 2 t) from by
        unfold Dat.leavesExact; rw [liveAt0_2 t hlc], after0_2]
      rw [accAt_last V c t h0 hl, outAt_last V c t h0 hl]
      unfold sLast oLast
      rw [PhiS_castSucc V c t, PhiS_pos V c _ _ h0]
      iintro ⟨⟨HS, HR⟩, Ho, ⟨%d0, H0⟩, ⟨%d1, H1⟩, ⟨%d2, H2⟩⟩
      iapply ((runLast c (grid0.coords t) _ _ _ _ _ _ _ _ (fun h => h0 ((hcondFirst t).mp h)) hlc (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR]
      · isplitl [HS]
        · unfold owns; iexists _; isplitr
          swap; · iexact HS
          ipureintro; exact View.read_writes_of_cover _ _ _ _ _ (coverLastS c t h0 hl _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (coverLastO c t h0 hl _ _ _)
    · -- a point in between
      have hnl : ¬condLast (grid0.coords t) := fun h => hl ((hcondLast t).mp h)
      rw [Dat.leavesExact_idle (dat0 V c) 2 t (idleAt0_2 t hnl) (noFlush0_2 t hnl)]
      rw [accAt_middle V c t h0 hl]
      unfold sMiddle
      rw [PhiS_castSucc V c t, PhiS_pos V c _ _ h0]
      iintro ⟨⟨HS, HR⟩, Ho, ⟨%d0, H0⟩, ⟨%d1, H1⟩, ⟨%d2, H2⟩⟩
      iapply ((runMiddle c (grid0.coords t) _ _ _ _ _ _ _ _ (fun h => h0 ((hcondFirst t).mp h)) hnl (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR]
      · isplitl [HS]
        · unfold owns; iexists _; isplitr
          swap; · iexact HS
          ipureintro; exact View.read_writes_of_cover _ _ _ _ _ (coverMiddle c t h0 hl _ _ _)
        iexact HR
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]

/-- After the last point the invariant gives the plain one back: the running sum's name is forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega)]
  iintro ⟨HS, HR⟩
  iapply (phiA_join (F := F) c)
  isplitl [HS]
  · iexists _; iexact HS
  iexact HR

end

end Cert.Kernel.Hand

end
-- ==== Proof.WordOutRegion.lean ====
import proofs.«140579_j58884001628800_1_alg».proof.Proof.Gen.Kernel.Launch
import proofs.«140579_j58884001628800_1_alg».proof.Proof.Gen.Kernel.Skeleton
import proofs.«140579_j58884001628800_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The word-level program — The second kernel, point by point

At grid point `t` the second kernel sees the whole prototype array, block `t` of the instances (1024 rows) and the
whole column of bag sums; it writes block `t` of the weights (`[512, 1024]`, columns `1024 t … 1024 t + 1023`) and
block `t` of the weighted instances (`[1024, 512]`). Each output block is stored whole, once, so after the body an
output's buffer holds exactly the stored value: a function of the three input blocks alone. Nothing is kept between
points.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rP : Rect S512x512 := Rect.unit (s := S512x512) ![0, 0] S512x512.size inb_S512x512_S512x512_0_0
abbrev rX : Rect S1024x512 := Rect.unit (s := S1024x512) ![0, 0] S1024x512.size inb_S1024x512_S1024x512_0_0
abbrev rC : Rect S512x1 := Rect.unit (s := S512x1) ![0, 0] S512x1.size inb_S512x1_S512x1_0_0
abbrev rW : Rect S512x1024 := Rect.unit (s := S512x1024) ![0, 0] S512x1024.size inb_S512x1024_S512x1024_0_0

/-- The weights block after the body, from the three input blocks. -/
def outW (x0 : Vec F S512x512 .f32) (x1 : Vec F S1024x512 .f32) (x2 : Vec F S512x1 .f32) : Vec F S512x1024 .f32 :=
  View.canon [⟨rW, k1_pay2 (View.ld x0 rP) (View.ld x1 rX) (View.ld x2 rC)⟩]

/-- The weighted-instances block after the body, from the three input blocks. -/
def outO (x0 : Vec F S512x512 .f32) (x1 : Vec F S1024x512 .f32) (x2 : Vec F S512x1 .f32) : Vec F S1024x512 .f32 :=
  View.canon [⟨rX, k1_pay3 (View.ld x0 rP) (View.ld x1 rX) (View.ld x2 rC)⟩]

theorem coverW (p0 : Vec F S512x1024 .f32) (y : S512x1024.Idx) :
    ∃ pc ∈ ([⟨rW, p0⟩] : List (View.Piece (Elt F) S512x1024 .f32)), y ∈ pc.1.set :=
  View.cover_of_tiled [⟨rW, p0⟩] S512x1024.size (by rfl) y

theorem coverO (p0 : Vec F S1024x512 .f32) (y : S1024x512.Idx) :
    ∃ pc ∈ ([⟨rX, p0⟩] : List (View.Piece (Elt F) S1024x512 .f32)), y ∈ pc.1.set :=
  View.cover_of_tiled [⟨rX, p0⟩] S1024x512.size (by rfl) y

set_option maxHeartbeats 4000000 in
/-- The body on whole staging memrefs: the inputs' at read contents, the outputs' at anything; it runs to the
    continuation holding the inputs' as they were and each output's at its stored value. -/
theorem sound_kernel1 (c : Dev nD) (E : Set ℕ) (i : grid1.Coords)
    (arg1 : Memref sig .tc .vmem S512x512 .f32) (harg1 : arg1.IsWhole) (arg2 : Memref sig .tc .vmem S1024x512 .f32) (harg2 : arg2.IsWhole)
    (arg3 : Memref sig .tc .vmem S512x1 .f32) (harg3 : arg3.IsWhole) (arg4 : Memref sig .tc .vmem S1024x512 .f32) (harg4 : arg4.IsWhole)
    (arg5 : Memref sig .tc .vmem S512x1024 .f32) (harg5 : arg5.IsWhole)
    (x0 : Vec F S512x512 .f32) (x1 : Vec F S1024x512 .f32) (x2 : Vec F S512x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outO x0 x1 x2) ∗ owns (c : Thread nD τ) arg5 fullShare (outW x0 x1 x2)) -∗ K ⟨⟩))
      ⊢ wp frame (wpE (defs₀ (F := F)) Variants.none c none) E (cc1__out_kernel i arg1 harg1 arg2 harg2 arg3 harg3 arg4 harg4 arg5 harg5) K := by
  simp only [cc1__out_kernel_eq_skeleton]; unfold cc1__out_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  iexists _; isplitr
  swap; · iexact H4
  ipureintro
  exact View.read_writes_eq_canon _ _ _ (coverW _)

end

end Cert.Kernel.Hand

end
-- ==== Proof.WordOutData.lean ====
import proofs.«140579_j58884001628800_1_alg».proof.Proof.Gen.Kernel.Launch
import proofs.«140579_j58884001628800_1_alg».proof.Proof.Gen.Kernel.Skeleton
import proofs.«140579_j58884001628800_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«140579_j58884001628800_1_alg».proof.Proof.WordOutRegion

/-!
# The word-level program — The second kernel's proof data

After the body at point `t` each input's buffer holds its block of the array as the region found it, and each
output's buffer holds the stored value, a function of the three input blocks (`outO`, `outW`). The kernel keeps
nothing between points, so the region's invariant is the plain one (the scoped rest and the generator register,
untouched) and nothing is owed.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outO (iblk1 V c 0 t) (iblk1 V c 1 t) (iblk1 V c 2 t)
    | ⟨4, _⟩ => outW (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outO (iblk1 V c 0 t) (iblk1 V c 1 t) (iblk1 V c 2 t) := by dsimp only [dat1]
theorem after1_4 (c : Dev nD) (t : Fin cfg1.N) :
    (dat1 V c).after 4 t = outW (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the kernel's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.WordRun.lean ====
import proofs.«140579_j58884001628800_1_alg».proof.Proof.Gen.Kernel.Launch
import proofs.«140579_j58884001628800_1_alg».proof.Proof.Gen.Kernel.Skeleton
import proofs.«140579_j58884001628800_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«140579_j58884001628800_1_alg».proof.Proof.Gen.Kernel.Regions
import proofs.«140579_j58884001628800_1_alg».proof.Proof.WordSumBody
import proofs.«140579_j58884001628800_1_alg».proof.Proof.WordOutData

/-!
# The word-level program — The whole program's run

@main is: a reshape of the instances `[1, 65536, 512] → [65536, 512]`, the first kernel's region, the second kernel's
region. The unscoped buffers' contents at the four boundaries are named `B0` (launch), `B1` (after the reshape),
`B2` (the first region's arrays at what its write-backs leave, everything else as before), `B3` (likewise for the
second region). Every weakly fair execution terminates with every unscoped buffer at `B3`; read at the arguments this
is the frame claim (no stretch and no region writes an argument), read at the two results it names their values.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the reshape. -/
abbrev B1 (c : Dev nD) : Valuation τ sig (Elt F) := StableHlo.after hostOps0 (B0 m ρ c)
abbrev C1 : (c : Dev nD) → (b : Ref sig .tc) → Buf (Elt F) ((c : Thread nD τ).loc b) := fun c b => B1 m ρ c b

/-- After the first region. -/
def B2 (c : Dev nD) : Valuation τ sig (Elt F) :=
  Pipeline.withArrays spec0 c (B1 m ρ c) fun w => (dat0 (C1 m ρ) c).arrAt w cfg0.N
theorem B2_arr (c : Dev nD) (w : Fin cfg0.W) :
    B2 m ρ c (Proc.devRef .tc (Pipeline.arrRef spec0 w)) = (dat0 (C1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev C2 : (c : Dev nD) → (b : Ref sig .tc) → Buf (Elt F) ((c : Thread nD τ).loc b) := fun c b => B2 m ρ c b
theorem hF0 (c : Dev nD) (w : Fin cfg0.W) : (dat0 (C1 m ρ) c).arrAt w cfg0.N = C2 m ρ c (Pipeline.arrRef spec0 w) :=
  (B2_arr m ρ c w).symm
theorem hrest0 (c : Dev nD) : ∀ b, b ∉ Finset.univ.image (Pipeline.arrRef spec0) → C2 m ρ c b = C1 m ρ c b :=
  fun b hb => B2_of_ne m ρ c b fun w e => hb (Finset.mem_image.mpr ⟨w, Finset.mem_univ _, e⟩)

/-- After the second region. -/
def B3 (c : Dev nD) : Valuation τ sig (Elt F) :=
  Pipeline.withArrays spec1 c (B2 m ρ c) fun w => (dat1 (C2 m ρ) c).arrAt w cfg1.N
theorem B3_arr (c : Dev nD) (w : Fin cfg1.W) :
    B3 m ρ c (Proc.devRef .tc (Pipeline.arrRef spec1 w)) = (dat1 (C2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev C3 : (c : Dev nD) → (b : Ref sig .tc) → Buf (Elt F) ((c : Thread nD τ).loc b) := fun c b => B3 m ρ c b
theorem hF1 (c : Dev nD) (w : Fin cfg1.W) : (dat1 (C2 m ρ) c).arrAt w cfg1.N = C3 m ρ c (Pipeline.arrRef spec1 w) :=
  (B3_arr m ρ c w).symm
theorem hrest1 (c : Dev nD) : ∀ b, b ∉ Finset.univ.image (Pipeline.arrRef spec1) → C3 m ρ c b = C2 m ρ c b :=
  fun b hb => B3_of_ne m ρ c b fun w e => hb (Finset.mem_image.mpr ⟨w, Finset.mem_univ _, e⟩)

/-! ## The arguments end as launched -/

theorem B1_of (c : Dev nD) (r : Ref sig .tc) (h : r ∉ hostOps0_W) : B1 m ρ c r = B0 m ρ c r :=
  StableHlo.after_of_writes_sub hostOps0 _ hostOps0_writes h

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := B1_of m ρ c main_arg0 (by decide)
    _ = m ((c : Thread nD τ).loc main_arg0) := rfl

theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := (B3_arr m ρ c 0).trans (((dat1 (C2 m ρ) c).arrAt_in 0 rfl _).trans (A_eq1 (C2 m ρ) c 0))
    _ = B1 m ρ c (Proc.devRef .tc main_arg1) := (B2_arr m ρ c 0).trans (((dat0 (C1 m ρ) c).arrAt_in 0 rfl _).trans (A_eq0 (C1 m ρ) c 0))
    _ = B0 m ρ c (Proc.devRef .tc main_arg1) := B1_of m ρ c main_arg1 (by decide)
    _ = m ((c : Thread nD τ).loc main_arg1) := rfl

/-! ## The proof data family and the thread state -/

abbrev admNone : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) admNone p) c
  | ⟨0, _⟩ => fun c => dat0 (C1 m ρ) c
  | ⟨1, _⟩ => fun c => dat1 (C2 m ρ) c

abbrev 𝒱n : Variants := Variants.none
abbrev Ln : GSem nD τ sig → Finset Unit := fun _ => ∅
abbrev lvn : GSem nD τ sig → Unit → ℕ := fun _ _ => 0

/-- What rides beside the buffers through every segment: the generator register at some state, nothing owed. -/
abbrev Rr (c : Dev nD) : sProp 𝕄 := iprop((∃ r, prngReg c r) ∗ ∃ W, owes (c : Thread nD τ) (0 : CellTallies nD τ sig Unit) W)

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- The first region: entered from every unscoped buffer at `B1`, left at `B2`. -/
def regSum : Pipeline.RegionSeg (pcfgs (F := F)) admNone (pdats m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (C1 m ρ) c).loose
  hwaits := Pipeline.hwaits_of_owed_zero _ _ _ _ Ln lvn 0 fun _ _ => rfl
  pre c := iprop(StableHlo.held (c : Thread nD τ) (Pipeline.ucRefs τ sig) (B1 m ρ c) ∗ Rr c)
  post c := iprop(StableHlo.held (c : Thread nD τ) (Pipeline.ucRefs τ sig) (B2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (C1 m ρ c)
  hentry c := by
    rw [Pipeline.ownSems0_none]
    have hsplit := Pipeline.arrays_of_unscopedBufs (p := 0) (pcfgs (F := F)) admNone (pdats m ρ) launch0.win launch0.arr_whole c
      ((pdats m ρ 0 c).share_full fun _ => rfl) (C1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (C1 m ρ) c)
    unfold Pipeline.ΦA
    iintro ⟨Hp, -, Hr⟩
    isplitl [Hr]; · iexact Hr
    iexact Hp
  hout c := by
    refine Idealize.SL.BI.BIBase.Entails.trans (hout0 (C1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admNone (Ix := Unit) (Name := ℕ) (U := UR sig nD τ) (Lvl := ℕ)
      launch0.win launch0.arr_whole c (pdats m ρ) ((pdats m ρ 0 c).share_full fun _ => rfl)
      (C1 m ρ c) (C2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `B2`, left at `B3`. -/
def regOut : Pipeline.RegionSeg (pcfgs (F := F)) admNone (pdats m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (C2 m ρ) c).loose
  hwaits := Pipeline.hwaits_of_owed_zero _ _ _ _ Ln lvn 1 fun _ _ => rfl
  pre c := iprop(StableHlo.held (c : Thread nD τ) (Pipeline.ucRefs τ sig) (B2 m ρ c) ∗ Rr c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (C2 m ρ c)
  hentry c := by
    rw [Pipeline.ownSems0_none]
    have hsplit := Pipeline.arrays_of_unscopedBufs (p := 1) (pcfgs (F := F)) admNone (pdats m ρ) launch1.win launch1.arr_whole c
      ((pdats m ρ 1 c).share_full fun _ => rfl) (C2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admNone (Ix := Unit) (Name := ℕ) (U := UR sig nD τ) (Lvl := ℕ)
      launch1.win launch1.arr_whole c (pdats m ρ) ((pdats m ρ 1 c).share_full fun _ => rfl)
      (C2 m ρ c) (C3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev allSegs : List (Pipeline.Seg (pcfgs (F := F)) admNone (pdats m ρ) () defs₀ 𝒱n Ln lvn) :=
  [ .host (hostSeg hostOps0 hostOps0_sub hostOps0_fresh (B0 m ρ)),
    .region (regSum m ρ),
    .region (regOut m ρ) ]

theorem main_run (c : Dev nD) : main (F := F) c = Pipeline.Seg.run (allSegs m ρ) := (main_chain c).trans (by chain_rfl)

set_option backward.isDefEq.respectTransparency.types false in
/-- THE RUN: every weakly fair execution of @main terminates, and every final memory holds every unscoped buffer at
    the last boundary's contents `B3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) admNone (pdats m ρ) () cellOf_inj emb₁ defs₀ 𝒱n Ln lvn m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rr c)) (Tₙ := Tend m ρ)
    (hch := ⟨fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B3_main_arg0 m ρ c),
     (h c _ (mem_uc main_arg1 (by decide))).trans (B3_main_arg1 m ρ c)⟩) (run_all m ρ)

/-- THE RESULTS: each result array ends at what the second region's write-backs leave, the arguments as launched. -/
theorem run_results : θ_run defs (onTc (τ := τ) (main (F := F))) ⟨m, fun _ => 0, ρ⟩ (fun r => ∀ c : Dev nD,
      r.2.mem ((c.tc : Thread nD τ).loc main_v2_0) = (dat1 (C2 m ρ) c).arrAt 3 cfg1.N
      ∧ r.2.mem ((c.tc : Thread nD τ).loc main_v2_1) = (dat1 (C2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v2_0 (by decide))).trans (B3_arr m ρ c 3),
     (h c _ (mem_uc main_v2_1 (by decide))).trans (B3_arr m ρ c 4),
     (h c _ (mem_uc main_arg0 (by decide))).trans (B3_main_arg0 m ρ c),
     (h c _ (mem_uc main_arg1 (by decide))).trans (B3_main_arg1 m ρ c)⟩) (run_all m ρ)

end Cert.Kernel.Hand

end
-- ==== Proof.SumRegion.lean ====
import proofs.«140579_j58884001628800_1_alg».proof.Proof.Gen.KernelIdeal.Launch
import proofs.«140579_j58884001628800_1_alg».proof.Proof.Gen.KernelIdeal.Skeleton
import proofs.«140579_j58884001628800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first kernel, case by case

The first kernel keeps a running column of bag sums in a scratch buffer that lives across grid points. Its body
branches twice on the grid position: at the first point it resets the scratch to zero before adding; at the last point
it copies the scratch into the output's buffer after adding. So a point is in one of three cases:

* FIRST (point 0): reset, add this block's row sums; the output's buffer untouched;
* MIDDLE (points 1 … 62): add this block's row sums to what the point before left; the output's buffer untouched;
* LAST (point 63): add, then store the scratch into the output's buffer.

Each case's run is stated on whole buffers: the two inputs at their contents, the scratch at anything (FIRST) or at the
previous contents (MIDDLE, LAST), and gives back the scratch — and in LAST the output — with a list of written pieces
that the run itself finds.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition, from the grid position: "this is point 0". -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- The second branch's condition: "this is point 63". -/
abbrev condLast (i : grid0.Coords) : Prop := k0_cond2 i = 1#1
theorem hcondLast : ∀ t : Fin cfg0.N, condLast (grid0.coords t) ↔ t.val = 63 :=
  (by decide +kernel : ∀ t : Fin grid0.N, condLast (grid0.coords t) ↔ t.val = 63)

set_option maxHeartbeats 4000000 in
/-- FIRST. -/
noncomputable def runFirst (c : Dev nD) (i : grid0.Coords)
    (arg1 : Memref sig .tc .vmem S512x512 .f32) (harg1 : arg1.IsWhole) (arg2 : Memref sig .tc .vmem S1024x512 .f32) (harg2 : arg2.IsWhole)
    (arg3 : Memref sig .tc .vmem S512x1 .f32) (harg3 : arg3.IsWhole) (arg4 : Memref sig .tc .vmem S512x1 .f32) (harg4 : arg4.IsWhole)
    (hc0 : condFirst i) (hc1 : ¬condLast i) (x0 : Vec F S512x512 .f32) (x1 : Vec F S1024x512 .f32) :
    { LS : List (View.Piece (Elt F) S512x1 .f32) //
      ∀ (xi2 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare xi2
            ∗ (∃ d, owns (c : Thread nD τ) arg4 fullShare d)
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS)) -∗ K ⟨⟩))
          ⊢ wp frame (wpE (defs₀ (F := F)) Variants.none c none) E (cc0__sum_inv_kernel i arg1 harg1 arg2 harg2 arg3 harg3 arg4 harg4) K } := by
  refine ⟨?_, fun xi2 E K => ?run⟩
  case run =>
    simp only [cc0__sum_inv_kernel_eq_skeleton]; unfold cc0__sum_inv_kernel_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 4000000 in
/-- MIDDLE. -/
noncomputable def runMiddle (c : Dev nD) (i : grid0.Coords)
    (arg1 : Memref sig .tc .vmem S512x512 .f32) (harg1 : arg1.IsWhole) (arg2 : Memref sig .tc .vmem S1024x512 .f32) (harg2 : arg2.IsWhole)
    (arg3 : Memref sig .tc .vmem S512x1 .f32) (harg3 : arg3.IsWhole) (arg4 : Memref sig .tc .vmem S512x1 .f32) (harg4 : arg4.IsWhole)
    (hc0 : ¬condFirst i) (hc1 : ¬condLast i) (x0 : Vec F S512x512 .f32) (x1 : Vec F S1024x512 .f32) (xs : Vec F S512x1 .f32) :
    { LS : List (View.Piece (Elt F) S512x1 .f32) //
      ∀ (xi2 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare xi2
            ∗ owns (c : Thread nD τ) arg4 fullShare xs
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS)) -∗ K ⟨⟩))
          ⊢ wp frame (wpE (defs₀ (F := F)) Variants.none c none) E (cc0__sum_inv_kernel i arg1 harg1 arg2 harg2 arg3 harg3 arg4 harg4) K } := by
  refine ⟨?_, fun xi2 E K => ?run⟩
  case run =>
    simp only [cc0__sum_inv_kernel_eq_skeleton]; unfold cc0__sum_inv_kernel_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 4000000 in
/-- LAST. -/
noncomputable def runLast (c : Dev nD) (i : grid0.Coords)
    (arg1 : Memref sig .tc .vmem S512x512 .f32) (harg1 : arg1.IsWhole) (arg2 : Memref sig .tc .vmem S1024x512 .f32) (harg2 : arg2.IsWhole)
    (arg3 : Memref sig .tc .vmem S512x1 .f32) (harg3 : arg3.IsWhole) (arg4 : Memref sig .tc .vmem S512x1 .f32) (harg4 : arg4.IsWhole)
    (hc0 : ¬condFirst i) (hc1 : condLast i) (x0 : Vec F S512x512 .f32) (x1 : Vec F S1024x512 .f32) (xs : Vec F S512x1 .f32) :
    Σ' (LO : List (View.Piece (Elt F) S512x1 .f32)), { LS : List (View.Piece (Elt F) S512x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f LO)
                ∗ (∃ f, arg4.view.loc (c : Thread nD τ) ↦[arg4.view.set]{fullShare} arg4.view.writes (Elt F) f LS)) -∗ K ⟨⟩))
          ⊢ wp frame (wpE (defs₀ (F := F)) Variants.none c none) E (cc0__sum_inv_kernel i arg1 harg1 arg2 harg2 arg3 harg3 arg4 harg4) K } := by
  refine ⟨?_, ?_, fun E K => ?run⟩
  case run =>
    simp only [cc0__sum_inv_kernel_eq_skeleton]; unfold cc0__sum_inv_kernel_skel
    simp only [k0_part1_eq_skeleton]
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

end Cert.KernelIdeal.Hand

end
-- ==== Proof.SumData.lean ====
import proofs.«140579_j58884001628800_1_alg».proof.Proof.Gen.KernelIdeal.Launch
import proofs.«140579_j58884001628800_1_alg».proof.Proof.Gen.KernelIdeal.Skeleton
import proofs.«140579_j58884001628800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«140579_j58884001628800_1_alg».proof.Proof.SumRegion

/-!
# The first kernel's proof data: a running sum carried in scratch

`accAt n` is what the scratch column holds after point `n`: the FIRST case's result at point 0, then each later
point's result over what the point before left (`accAt (n-1)`). The output's buffer is untouched at every point
but the last, where it receives the scratch (`outAt`). The region's invariant before point `n+1` holds the
scratch at `accAt n`; before point 0 it is the plain one (the scratch at anything). Whatever else the plain
invariant holds besides the scratch rides along unopened.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
theorem liveAt0_2 : ∀ t : Fin cfg0.N, condLast (grid0.coords t) → cfg0.idle 2 (grid0.coords t) = false := by decide +kernel

/-! ## The buffers the body is called with -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
/-- The scratch column. -/
abbrev scM0 : Memref sig .tc .vmem S512x1 .f32 := Memref.whole cc0_scratch0
abbrev VS0 : View sig .tc .vmem S512x1 .f32 := scM0.view
abbrev VO0 : View sig .tc .vmem S512x1 .f32 := (Memref.whole cc0_stg2_0 : Memref sig .tc .vmem S512x1 .f32).view

theorem notLast_of_first {t : Fin cfg0.N} (h0 : t.val = 0) : ¬condLast (grid0.coords t) :=
  fun h => by have := (hcondLast t).mp h; omega

/-! ## What each case leaves -/

/-- The scratch after the FIRST case. -/
def sFirst (c : Dev nD) (t : Fin cfg0.N) (h0 : t.val = 0) (x0 : Vec F S512x512 .f32) (x1 : Vec F S1024x512 .f32) : Vec F S512x1 .f32 :=
  VS0.read (Elt F) (VS0.writes (Elt F) VS0.junk
    (runFirst c (grid0.coords t) (ms0_0 t) (hs0_0 t) (ms0_1 t) (hs0_1 t) (ms0_2 t) (hs0_2 t) scM0 (Memref.isWhole_whole _)
      ((hcondFirst t).mpr h0) (notLast_of_first h0) x0 x1).1)

theorem coverFirst (c : Dev nD) (t : Fin cfg0.N) (h0 : t.val = 0) (x0 : Vec F S512x512 .f32) (x1 : Vec F S1024x512 .f32) (y : S512x1.Idx) :
    ∃ pc ∈ (runFirst c (grid0.coords t) (ms0_0 t) (hs0_0 t) (ms0_1 t) (hs0_1 t) (ms0_2 t) (hs0_2 t) scM0 (Memref.isWhole_whole _)
      ((hcondFirst t).mpr h0) (notLast_of_first h0) x0 x1).1, y ∈ pc.1.set :=
  View.cover_of_tiledL _ S512x1.size (by sl_kernel_rfl) y

/-- The scratch after a MIDDLE case, over the previous contents `xs`. -/
def sMiddle (c : Dev nD) (t : Fin cfg0.N) (h0 : t.val ≠ 0) (hl : t.val ≠ 63) (x0 : Vec F S512x512 .f32) (x1 : Vec F S1024x512 .f32)
    (xs : Vec F S512x1 .f32) : Vec F S512x1 .f32 :=
  VS0.read (Elt F) (VS0.writes (Elt F) VS0.junk
    (runMiddle c (grid0.coords t) (ms0_0 t) (hs0_0 t) (ms0_1 t) (hs0_1 t) (ms0_2 t) (hs0_2 t) scM0 (Memref.isWhole_whole _)
      (fun h => h0 ((hcondFirst t).mp h)) (fun h => hl ((hcondLast t).mp h)) x0 x1 xs).1)

theorem coverMiddle (c : Dev nD) (t : Fin cfg0.N) (h0 : t.val ≠ 0) (hl : t.val ≠ 63) (x0 : Vec F S512x512 .f32) (x1 : Vec F S1024x512 .f32)
    (xs : Vec F S512x1 .f32) (y : S512x1.Idx) :
    ∃ pc ∈ (runMiddle c (grid0.coords t) (ms0_0 t) (hs0_0 t) (ms0_1 t) (hs0_1 t) (ms0_2 t) (hs0_2 t) scM0 (Memref.isWhole_whole _)
      (fun h => h0 ((hcondFirst t).mp h)) (fun h => hl ((hcondLast t).mp h)) x0 x1 xs).1, y ∈ pc.1.set :=
  View.cover_of_tiledL _ S512x1.size (by sl_kernel_rfl) y

/-- The scratch after the LAST case. -/
def sLast (c : Dev nD) (t : Fin cfg0.N) (h0 : t.val ≠ 0) (hl : t.val = 63) (x0 : Vec F S512x512 .f32) (x1 : Vec F S1024x512 .f32)
    (xs : Vec F S512x1 .f32) : Vec F S512x1 .f32 :=
  VS0.read (Elt F) (VS0.writes (Elt F) VS0.junk
    (runLast c (grid0.coords t) (ms0_0 t) (hs0_0 t) (ms0_1 t) (hs0_1 t) (ms0_2 t) (hs0_2 t) scM0 (Memref.isWhole_whole _)
      (fun h => h0 ((hcondFirst t).mp h)) ((hcondLast t).mpr hl) x0 x1 xs).2.1)

theorem coverLastS (c : Dev nD) (t : Fin cfg0.N) (h0 : t.val ≠ 0) (hl : t.val = 63) (x0 : Vec F S512x512 .f32) (x1 : Vec F S1024x512 .f32)
    (xs : Vec F S512x1 .f32) (y : S512x1.Idx) :
    ∃ pc ∈ (runLast c (grid0.coords t) (ms0_0 t) (hs0_0 t) (ms0_1 t) (hs0_1 t) (ms0_2 t) (hs0_2 t) scM0 (Memref.isWhole_whole _)
      (fun h => h0 ((hcondFirst t).mp h)) ((hcondLast t).mpr hl) x0 x1 xs).2.1, y ∈ pc.1.set :=
  View.cover_of_tiledL _ S512x1.size (by sl_kernel_rfl) y

/-- The output's buffer after the LAST case. -/
def oLast (c : Dev nD) (t : Fin cfg0.N) (h0 : t.val ≠ 0) (hl : t.val = 63) (x0 : Vec F S512x512 .f32) (x1 : Vec F S1024x512 .f32)
    (xs : Vec F S512x1 .f32) : Vec F S512x1 .f32 :=
  VO0.read (Elt F) (VO0.writes (Elt F) VO0.junk
    (runLast c (grid0.coords t) (ms0_0 t) (hs0_0 t) (ms0_1 t) (hs0_1 t) (ms0_2 t) (hs0_2 t) scM0 (Memref.isWhole_whole _)
      (fun h => h0 ((hcondFirst t).mp h)) ((hcondLast t).mpr hl) x0 x1 xs).1)

theorem coverLastO (c : Dev nD) (t : Fin cfg0.N) (h0 : t.val ≠ 0) (hl : t.val = 63) (x0 : Vec F S512x512 .f32) (x1 : Vec F S1024x512 .f32)
    (xs : Vec F S512x1 .f32) (y : S512x1.Idx) :
    ∃ pc ∈ (runLast c (grid0.coords t) (ms0_0 t) (hs0_0 t) (ms0_1 t) (hs0_1 t) (ms0_2 t) (hs0_2 t) scM0 (Memref.isWhole_whole _)
      (fun h => h0 ((hcondFirst t).mp h)) ((hcondLast t).mpr hl) x0 x1 xs).1, y ∈ pc.1.set :=
  View.cover_of_tiledL _ S512x1.size (by sl_kernel_rfl) y

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- THE RUNNING SUM: the scratch column after point `n`. -/
def accAt (c : Dev nD) : (n : ℕ) → n < cfg0.N → Vec F S512x1 .f32
  | 0, hn => sFirst c ⟨0, hn⟩ rfl (iblk0 V c 0 ⟨0, hn⟩) (iblk0 V c 1 ⟨0, hn⟩)
  | n + 1, hn =>
    if hl : n + 1 = 63 then
      sLast c ⟨n + 1, hn⟩ (Nat.succ_ne_zero n) hl (iblk0 V c 0 ⟨n + 1, hn⟩) (iblk0 V c 1 ⟨n + 1, hn⟩) (accAt c n (Nat.lt_of_succ_lt hn))
    else
      sMiddle c ⟨n + 1, hn⟩ (Nat.succ_ne_zero n) hl (iblk0 V c 0 ⟨n + 1, hn⟩) (iblk0 V c 1 ⟨n + 1, hn⟩) (accAt c n (Nat.lt_of_succ_lt hn))

theorem accAt_first (c : Dev nD) (t : Fin cfg0.N) (h0 : t.val = 0) :
    accAt V c t.val t.isLt = sFirst c t h0 (iblk0 V c 0 t) (iblk0 V c 1 t) := by
  obtain ⟨n, hn⟩ := t
  cases n with
  | zero => rfl
  | succ n => exact absurd h0 (Nat.succ_ne_zero n)

theorem accAt_middle (c : Dev nD) (t : Fin cfg0.N) (h0 : t.val ≠ 0) (hl : t.val ≠ 63) :
    accAt V c t.val t.isLt = sMiddle c t h0 hl (iblk0 V c 0 t) (iblk0 V c 1 t)
      (accAt V c (t.val - 1) (Nat.lt_of_le_of_lt (Nat.sub_le _ _) t.isLt)) := by
  obtain ⟨n, hn⟩ := t
  cases n with
  | zero => exact absurd rfl h0
  | succ n => exact (dif_neg hl).trans rfl

theorem accAt_last (c : Dev nD) (t : Fin cfg0.N) (h0 : t.val ≠ 0) (hl : t.val = 63) :
    accAt V c t.val t.isLt = sLast c t h0 hl (iblk0 V c 0 t) (iblk0 V c 1 t)
      (accAt V c (t.val - 1) (Nat.lt_of_le_of_lt (Nat.sub_le _ _) t.isLt)) := by
  obtain ⟨n, hn⟩ := t
  cases n with
  | zero => exact absurd rfl h0
  | succ n => exact (dif_pos hl).trans rfl

/-- The output's buffer after point `t`: the scratch's copy at the last point; nothing the pipeline ever consults
    elsewhere (the window is idle there and not written back). -/
def outAt (c : Dev nD) (t : Fin cfg0.N) : Vec F S512x1 .f32 :=
  if hl : t.val = 63 then
    oLast c t (by omega) hl (iblk0 V c 0 t) (iblk0 V c 1 t) (accAt V c (t.val - 1) (Nat.lt_of_le_of_lt (Nat.sub_le _ _) t.isLt))
  else VO0.read (Elt F) (VO0.writes (Elt F) VO0.junk [])

theorem outAt_last (c : Dev nD) (t : Fin cfg0.N) (h0 : t.val ≠ 0) (hl : t.val = 63) :
    outAt V c t = oLast c t h0 hl (iblk0 V c 0 t) (iblk0 V c 1 t) (accAt V c (t.val - 1) (Nat.lt_of_le_of_lt (Nat.sub_le _ _) t.isLt)) := by
  unfold outAt; exact dif_pos hl

/-! ## The invariant -/

/-- What the plain invariant holds besides the scratch column, unopened. -/
def restOf (c : Dev nD) : sProp 𝕄 :=
  iprop((∃ d, owns (c : Thread nD τ) scM0 fullShare d) -∗ (Pipeline.ΦA spec0 c : sProp 𝕄))

theorem scratch_of_loc (c : Dev nD) :
    (iprop(∃ f : Buf (Elt F) ((c : Thread nD τ).loc cc0_scratch0), ((c : Thread nD τ).loc cc0_scratch0) ↦{fullShare} f) : sProp 𝕄)
      ⊢ iprop(∃ d, owns (c : Thread nD τ) scM0 fullShare d) := by
  simp only [scM0, owns_whole]; exact .rfl

theorem loc_of_scratch (c : Dev nD) :
    (iprop(∃ d, owns (c : Thread nD τ) scM0 fullShare d) : sProp 𝕄)
      ⊢ iprop(∃ f : Buf (Elt F) ((c : Thread nD τ).loc cc0_scratch0), ((c : Thread nD τ).loc cc0_scratch0) ↦{fullShare} f) := by
  simp only [scM0, owns_whole]; exact .rfl

/-- The plain invariant gives up the scratch column (at some contents) and keeps the rest. -/
theorem phiA_split (c : Dev nD) :
    (Pipeline.ΦA spec0 c : sProp 𝕄) ⊢ iprop((∃ d, owns (c : Thread nD τ) scM0 fullShare d) ∗ restOf (F := F) c) := by
  unfold restOf Pipeline.ΦA
  rw [scopedRest0_eq]
  iintro ⟨⟨HS, HR⟩, Hg⟩
  isplitl [HS]
  · iapply (scratch_of_loc (F := F) c); iexact HS
  iintro HS'
  isplitr [Hg]
  · isplitl [HS']
    · iapply (loc_of_scratch (F := F) c); iexact HS'
    iexact HR
  iexact Hg

/-- The scratch column, at any contents, beside the rest is the plain invariant again. -/
theorem phiA_join (c : Dev nD) :
    iprop((∃ d, owns (c : Thread nD τ) scM0 fullShare d) ∗ restOf (F := F) c) ⊢ (Pipeline.ΦA spec0 c : sProp 𝕄) := by
  unfold restOf
  iintro ⟨HS, HW⟩
  iapply HW
  iexact HS

/-- The region's invariant before position `n`. -/
def PhiS (c : Dev nD) : (n : ℕ) → n ≤ cfg0.N → sProp 𝕄
  | 0, _ => Pipeline.ΦA spec0 c
  | n + 1, hn => iprop(owns (c : Thread nD τ) scM0 fullShare (accAt V c n hn) ∗ restOf (F := F) c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0 fullShare (accAt V c n hn) ∗ restOf (F := F) c) := rfl

theorem PhiS_pos (c : Dev nD) (n : ℕ) (h : n ≤ cfg0.N) (hz : n ≠ 0) :
    PhiS V c n h = iprop(owns (c : Thread nD τ) scM0 fullShare (accAt V c (n - 1) (by omega)) ∗ restOf (F := F) c) := by
  cases n with
  | zero => exact absurd rfl hz
  | succ n => rfl

/-! ## The proof data -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end

end Cert.KernelIdeal.Hand

end
-- ==== Proof.SumBody.lean ====
import proofs.«140579_j58884001628800_1_alg».proof.Proof.Gen.KernelIdeal.Launch
import proofs.«140579_j58884001628800_1_alg».proof.Proof.Gen.KernelIdeal.Skeleton
import proofs.«140579_j58884001628800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«140579_j58884001628800_1_alg».proof.Proof.SumData

/-!
# The first kernel's body obligation

At every point the body, called on the windows' current buffers and the scratch column, runs and leaves what the
proof data says: the inputs' buffers at their blocks, the scratch at the running sum `accAt`, the output's buffer
untouched except at the last point. Three cases by the grid position. The invariant hands the body the scratch — at
anything before point 0, at the previous running sum afterwards — and takes it back at the new one.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 64 := lt_of_lt_of_eq t.isLt (show cfg0.N = 64 from N_0)
  by_cases h0 : t.val = 0
  · -- the first point
    have hnl : ¬condLast (grid0.coords t) := notLast_of_first h0
    rw [Dat.leavesExact_idle (dat0 V c) 2 t (idleAt0_2 t hnl) (noFlush0_2 t hnl)]
    rw [accAt_first V c t h0]
    unfold sFirst
    rw [PhiS_castSucc V c t, PhiS_zero V c _ _ h0]
    iintro ⟨HΦ, Ho, ⟨%d0, H0⟩, ⟨%d1, H1⟩, ⟨%d2, H2⟩⟩
    ihave HΦ' := (phiA_split (F := F) c) $$ HΦ
    icases HΦ' with ⟨HS, HR⟩
    iapply ((runFirst c (grid0.coords t) _ _ _ _ _ _ _ _ ((hcondFirst t).mpr h0) hnl (iblk0 V c 0 t) (iblk0 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR]
    · isplitl [HS]
      · unfold owns; iexists _; isplitr
        swap; · iexact HS
        ipureintro; exact View.read_writes_of_cover _ _ _ _ _ (coverFirst c t h0 _ _)
      iexact HR
    isplitl [Ho]; · iexact Ho
    isplitl [H0]; · iexact H0
    isplitl [H1]; · iexact H1
    iexists _; iexact H2
  · by_cases hl : t.val = 63
    · -- the last point
      have hlc : condLast (grid0.coords t) := (hcondLast t).mpr hl
      rw [show (dat0 V c).leavesExact 2 t = owns (c : Thread nD τ) (ms0_2 t) fullShare ((dat0 V c).after 2 t) from by
        unfold Dat.leavesExact; rw [liveAt0_2 t hlc], after0_2]
      rw [accAt_last V c t h0 hl, outAt_last V c t h0 hl]
      unfold sLast oLast
      rw [PhiS_castSucc V c t, PhiS_pos V c _ _ h0]
      iintro ⟨⟨HS, HR⟩, Ho, ⟨%d0, H0⟩, ⟨%d1, H1⟩, ⟨%d2, H2⟩⟩
      iapply ((runLast c (grid0.coords t) _ _ _ _ _ _ _ _ (fun h => h0 ((hcondFirst t).mp h)) hlc (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR]
      · isplitl [HS]
        · unfold owns; iexists _; isplitr
          swap; · iexact HS
          ipureintro; exact View.read_writes_of_cover _ _ _ _ _ (coverLastS c t h0 hl _ _ _)
        iexact HR
      isplitl [Ho]; · iexact Ho
      isplitl [H0]; · iexact H0
      isplitl [H1]; · iexact H1
      unfold owns; iexists _; isplitr
      swap; · iexact H2
      ipureintro; exact View.read_writes_of_cover _ _ _ _ _ (coverLastO c t h0 hl _ _ _)
    · -- a point in between
      have hnl : ¬condLast (grid0.coords t) := fun h => hl ((hcondLast t).mp h)
      rw [Dat.leavesExact_idle (dat0 V c) 2 t (idleAt0_2 t hnl) (noFlush0_2 t hnl)]
      rw [accAt_middle V c t h0 hl]
      unfold sMiddle
      rw [PhiS_castSucc V c t, PhiS_pos V c _ _ h0]
      iintro ⟨⟨HS, HR⟩, Ho, ⟨%d0, H0⟩, ⟨%d1, H1⟩, ⟨%d2, H2⟩⟩
      iapply ((runMiddle c (grid0.coords t) _ _ _ _ _ _ _ _ (fun h => h0 ((hcondFirst t).mp h)) hnl (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR]
      · isplitl [HS]
        · unfold owns; iexists _; isplitr
          swap; · iexact HS
          ipureintro; exact View.read_writes_of_cover _ _ _ _ _ (coverMiddle c t h0 hl _ _ _)
        iexact HR
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]

/-- After the last point the invariant gives the plain one back: the running sum's name is forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega)]
  iintro ⟨HS, HR⟩
  iapply (phiA_join (F := F) c)
  isplitl [HS]
  · iexists _; iexact HS
  iexact HR

end

end Cert.KernelIdeal.Hand

end
-- ==== Proof.OutRegion.lean ====
import proofs.«140579_j58884001628800_1_alg».proof.Proof.Gen.KernelIdeal.Launch
import proofs.«140579_j58884001628800_1_alg».proof.Proof.Gen.KernelIdeal.Skeleton
import proofs.«140579_j58884001628800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second kernel, point by point

At grid point `t` the second kernel sees the whole prototype array, block `t` of the instances (1024 rows) and the
whole column of bag sums; it writes block `t` of the weights (`[512, 1024]`, columns `1024 t … 1024 t + 1023`) and
block `t` of the weighted instances (`[1024, 512]`). Each output block is stored whole, once, so after the body an
output's buffer holds exactly the stored value: a function of the three input blocks alone. Nothing is kept between
points.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rP : Rect S512x512 := Rect.unit (s := S512x512) ![0, 0] S512x512.size inb_S512x512_S512x512_0_0
abbrev rX : Rect S1024x512 := Rect.unit (s := S1024x512) ![0, 0] S1024x512.size inb_S1024x512_S1024x512_0_0
abbrev rC : Rect S512x1 := Rect.unit (s := S512x1) ![0, 0] S512x1.size inb_S512x1_S512x1_0_0
abbrev rW : Rect S512x1024 := Rect.unit (s := S512x1024) ![0, 0] S512x1024.size inb_S512x1024_S512x1024_0_0

/-- The weights block after the body, from the three input blocks. -/
def outW (x0 : Vec F S512x512 .f32) (x1 : Vec F S1024x512 .f32) (x2 : Vec F S512x1 .f32) : Vec F S512x1024 .f32 :=
  View.canon [⟨rW, k1_pay2 (View.ld x0 rP) (View.ld x1 rX) (View.ld x2 rC)⟩]

/-- The weighted-instances block after the body, from the three input blocks. -/
def outO (x0 : Vec F S512x512 .f32) (x1 : Vec F S1024x512 .f32) (x2 : Vec F S512x1 .f32) : Vec F S1024x512 .f32 :=
  View.canon [⟨rX, k1_pay3 (View.ld x0 rP) (View.ld x1 rX) (View.ld x2 rC)⟩]

theorem coverW (p0 : Vec F S512x1024 .f32) (y : S512x1024.Idx) :
    ∃ pc ∈ ([⟨rW, p0⟩] : List (View.Piece (Elt F) S512x1024 .f32)), y ∈ pc.1.set :=
  View.cover_of_tiled [⟨rW, p0⟩] S512x1024.size (by rfl) y

theorem coverO (p0 : Vec F S1024x512 .f32) (y : S1024x512.Idx) :
    ∃ pc ∈ ([⟨rX, p0⟩] : List (View.Piece (Elt F) S1024x512 .f32)), y ∈ pc.1.set :=
  View.cover_of_tiled [⟨rX, p0⟩] S1024x512.size (by rfl) y

set_option maxHeartbeats 4000000 in
/-- The body on whole staging memrefs: the inputs' at read contents, the outputs' at anything; it runs to the
    continuation holding the inputs' as they were and each output's at its stored value. -/
theorem sound_kernel1 (c : Dev nD) (E : Set ℕ) (i : grid1.Coords)
    (arg1 : Memref sig .tc .vmem S512x512 .f32) (harg1 : arg1.IsWhole) (arg2 : Memref sig .tc .vmem S1024x512 .f32) (harg2 : arg2.IsWhole)
    (arg3 : Memref sig .tc .vmem S512x1 .f32) (harg3 : arg3.IsWhole) (arg4 : Memref sig .tc .vmem S1024x512 .f32) (harg4 : arg4.IsWhole)
    (arg5 : Memref sig .tc .vmem S512x1024 .f32) (harg5 : arg5.IsWhole)
    (x0 : Vec F S512x512 .f32) (x1 : Vec F S1024x512 .f32) (x2 : Vec F S512x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outO x0 x1 x2) ∗ owns (c : Thread nD τ) arg5 fullShare (outW x0 x1 x2)) -∗ K ⟨⟩))
      ⊢ wp frame (wpE (defs₀ (F := F)) Variants.none c none) E (cc1__out_kernel i arg1 harg1 arg2 harg2 arg3 harg3 arg4 harg4 arg5 harg5) K := by
  simp only [cc1__out_kernel_eq_skeleton]; unfold cc1__out_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  iexists _; isplitr
  swap; · iexact H4
  ipureintro
  exact View.read_writes_eq_canon _ _ _ (coverW _)

end

end Cert.KernelIdeal.Hand

end
-- ==== Proof.OutData.lean ====
import proofs.«140579_j58884001628800_1_alg».proof.Proof.Gen.KernelIdeal.Launch
import proofs.«140579_j58884001628800_1_alg».proof.Proof.Gen.KernelIdeal.Skeleton
import proofs.«140579_j58884001628800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«140579_j58884001628800_1_alg».proof.Proof.OutRegion

/-!
# The second kernel's proof data

After the body at point `t` each input's buffer holds its block of the array as the region found it, and each
output's buffer holds the stored value, a function of the three input blocks (`outO`, `outW`). The kernel keeps
nothing between points, so the region's invariant is the plain one (the scoped rest and the generator register,
untouched) and nothing is owed.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outO (iblk1 V c 0 t) (iblk1 V c 1 t) (iblk1 V c 2 t)
    | ⟨4, _⟩ => outW (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outO (iblk1 V c 0 t) (iblk1 V c 1 t) (iblk1 V c 2 t) := by dsimp only [dat1]
theorem after1_4 (c : Dev nD) (t : Fin cfg1.N) :
    (dat1 V c).after 4 t = outW (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the kernel's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KernelRun.lean ====
import proofs.«140579_j58884001628800_1_alg».proof.Proof.Gen.KernelIdeal.Launch
import proofs.«140579_j58884001628800_1_alg».proof.Proof.Gen.KernelIdeal.Skeleton
import proofs.«140579_j58884001628800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«140579_j58884001628800_1_alg».proof.Proof.Gen.KernelIdeal.Regions
import proofs.«140579_j58884001628800_1_alg».proof.Proof.SumBody
import proofs.«140579_j58884001628800_1_alg».proof.Proof.OutData

/-!
# The whole program's run

@main is: a reshape of the instances `[1, 65536, 512] → [65536, 512]`, the first kernel's region, the second kernel's
region. The unscoped buffers' contents at the four boundaries are named `B0` (launch), `B1` (after the reshape),
`B2` (the first region's arrays at what its write-backs leave, everything else as before), `B3` (likewise for the
second region). Every weakly fair execution terminates with every unscoped buffer at `B3`; read at the arguments this
is the frame claim (no stretch and no region writes an argument), read at the two results it names their values.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
/-- After the reshape. -/
abbrev B1 (c : Dev nD) : Valuation τ sig (Elt F) := StableHlo.after hostOps0 (B0 m ρ c)
abbrev C1 : (c : Dev nD) → (b : Ref sig .tc) → Buf (Elt F) ((c : Thread nD τ).loc b) := fun c b => B1 m ρ c b

/-- After the first region. -/
def B2 (c : Dev nD) : Valuation τ sig (Elt F) :=
  Pipeline.withArrays spec0 c (B1 m ρ c) fun w => (dat0 (C1 m ρ) c).arrAt w cfg0.N
theorem B2_arr (c : Dev nD) (w : Fin cfg0.W) :
    B2 m ρ c (Proc.devRef .tc (Pipeline.arrRef spec0 w)) = (dat0 (C1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev C2 : (c : Dev nD) → (b : Ref sig .tc) → Buf (Elt F) ((c : Thread nD τ).loc b) := fun c b => B2 m ρ c b
theorem hF0 (c : Dev nD) (w : Fin cfg0.W) : (dat0 (C1 m ρ) c).arrAt w cfg0.N = C2 m ρ c (Pipeline.arrRef spec0 w) :=
  (B2_arr m ρ c w).symm
theorem hrest0 (c : Dev nD) : ∀ b, b ∉ Finset.univ.image (Pipeline.arrRef spec0) → C2 m ρ c b = C1 m ρ c b :=
  fun b hb => B2_of_ne m ρ c b fun w e => hb (Finset.mem_image.mpr ⟨w, Finset.mem_univ _, e⟩)

/-- After the second region. -/
def B3 (c : Dev nD) : Valuation τ sig (Elt F) :=
  Pipeline.withArrays spec1 c (B2 m ρ c) fun w => (dat1 (C2 m ρ) c).arrAt w cfg1.N
theorem B3_arr (c : Dev nD) (w : Fin cfg1.W) :
    B3 m ρ c (Proc.devRef .tc (Pipeline.arrRef spec1 w)) = (dat1 (C2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev C3 : (c : Dev nD) → (b : Ref sig .tc) → Buf (Elt F) ((c : Thread nD τ).loc b) := fun c b => B3 m ρ c b
theorem hF1 (c : Dev nD) (w : Fin cfg1.W) : (dat1 (C2 m ρ) c).arrAt w cfg1.N = C3 m ρ c (Pipeline.arrRef spec1 w) :=
  (B3_arr m ρ c w).symm
theorem hrest1 (c : Dev nD) : ∀ b, b ∉ Finset.univ.image (Pipeline.arrRef spec1) → C3 m ρ c b = C2 m ρ c b :=
  fun b hb => B3_of_ne m ρ c b fun w e => hb (Finset.mem_image.mpr ⟨w, Finset.mem_univ _, e⟩)

/-! ## The arguments end as launched -/

theorem B1_of (c : Dev nD) (r : Ref sig .tc) (h : r ∉ hostOps0_W) : B1 m ρ c r = B0 m ρ c r :=
  StableHlo.after_of_writes_sub hostOps0 _ hostOps0_writes h

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := B1_of m ρ c main_arg0 (by decide)
    _ = m ((c : Thread nD τ).loc main_arg0) := rfl

theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := (B3_arr m ρ c 0).trans (((dat1 (C2 m ρ) c).arrAt_in 0 rfl _).trans (A_eq1 (C2 m ρ) c 0))
    _ = B1 m ρ c (Proc.devRef .tc main_arg1) := (B2_arr m ρ c 0).trans (((dat0 (C1 m ρ) c).arrAt_in 0 rfl _).trans (A_eq0 (C1 m ρ) c 0))
    _ = B0 m ρ c (Proc.devRef .tc main_arg1) := B1_of m ρ c main_arg1 (by decide)
    _ = m ((c : Thread nD τ).loc main_arg1) := rfl

/-! ## The proof data family and the thread state -/

abbrev admNone : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) admNone p) c
  | ⟨0, _⟩ => fun c => dat0 (C1 m ρ) c
  | ⟨1, _⟩ => fun c => dat1 (C2 m ρ) c

abbrev 𝒱n : Variants := Variants.none
abbrev Ln : GSem nD τ sig → Finset Unit := fun _ => ∅
abbrev lvn : GSem nD τ sig → Unit → ℕ := fun _ _ => 0

/-- What rides beside the buffers through every segment: the generator register at some state, nothing owed. -/
abbrev Rr (c : Dev nD) : sProp 𝕄 := iprop((∃ r, prngReg c r) ∗ ∃ W, owes (c : Thread nD τ) (0 : CellTallies nD τ sig Unit) W)

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- The first region: entered from every unscoped buffer at `B1`, left at `B2`. -/
def regSum : Pipeline.RegionSeg (pcfgs (F := F)) admNone (pdats m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (C1 m ρ) c).loose
  hwaits := Pipeline.hwaits_of_owed_zero _ _ _ _ Ln lvn 0 fun _ _ => rfl
  pre c := iprop(StableHlo.held (c : Thread nD τ) (Pipeline.ucRefs τ sig) (B1 m ρ c) ∗ Rr c)
  post c := iprop(StableHlo.held (c : Thread nD τ) (Pipeline.ucRefs τ sig) (B2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (C1 m ρ c)
  hentry c := by
    rw [Pipeline.ownSems0_none]
    have hsplit := Pipeline.arrays_of_unscopedBufs (p := 0) (pcfgs (F := F)) admNone (pdats m ρ) launch0.win launch0.arr_whole c
      ((pdats m ρ 0 c).share_full fun _ => rfl) (C1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (C1 m ρ) c)
    unfold Pipeline.ΦA
    iintro ⟨Hp, -, Hr⟩
    isplitl [Hr]; · iexact Hr
    iexact Hp
  hout c := by
    refine Idealize.SL.BI.BIBase.Entails.trans (hout0 (C1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admNone (Ix := Unit) (Name := ℕ) (U := UR sig nD τ) (Lvl := ℕ)
      launch0.win launch0.arr_whole c (pdats m ρ) ((pdats m ρ 0 c).share_full fun _ => rfl)
      (C1 m ρ c) (C2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `B2`, left at `B3`. -/
def regOut : Pipeline.RegionSeg (pcfgs (F := F)) admNone (pdats m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (C2 m ρ) c).loose
  hwaits := Pipeline.hwaits_of_owed_zero _ _ _ _ Ln lvn 1 fun _ _ => rfl
  pre c := iprop(StableHlo.held (c : Thread nD τ) (Pipeline.ucRefs τ sig) (B2 m ρ c) ∗ Rr c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (C2 m ρ c)
  hentry c := by
    rw [Pipeline.ownSems0_none]
    have hsplit := Pipeline.arrays_of_unscopedBufs (p := 1) (pcfgs (F := F)) admNone (pdats m ρ) launch1.win launch1.arr_whole c
      ((pdats m ρ 1 c).share_full fun _ => rfl) (C2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admNone (Ix := Unit) (Name := ℕ) (U := UR sig nD τ) (Lvl := ℕ)
      launch1.win launch1.arr_whole c (pdats m ρ) ((pdats m ρ 1 c).share_full fun _ => rfl)
      (C2 m ρ c) (C3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev allSegs : List (Pipeline.Seg (pcfgs (F := F)) admNone (pdats m ρ) () defs₀ 𝒱n Ln lvn) :=
  [ .host (hostSeg hostOps0 hostOps0_sub hostOps0_fresh (B0 m ρ)),
    .region (regSum m ρ),
    .region (regOut m ρ) ]

theorem main_run (c : Dev nD) : main (F := F) c = Pipeline.Seg.run (allSegs m ρ) := (main_chain c).trans (by chain_rfl)

set_option backward.isDefEq.respectTransparency.types false in
/-- THE RUN: every weakly fair execution of @main terminates, and every final memory holds every unscoped buffer at
    the last boundary's contents `B3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) admNone (pdats m ρ) () cellOf_inj emb₁ defs₀ 𝒱n Ln lvn m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rr c)) (Tₙ := Tend m ρ)
    (hch := ⟨fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B3_main_arg0 m ρ c),
     (h c _ (mem_uc main_arg1 (by decide))).trans (B3_main_arg1 m ρ c)⟩) (run_all m ρ)

/-- THE RESULTS: each result array ends at what the second region's write-backs leave, the arguments as launched. -/
theorem run_results : θ_run defs (onTc (τ := τ) (main (F := F))) ⟨m, fun _ => 0, ρ⟩ (fun r => ∀ c : Dev nD,
      r.2.mem ((c.tc : Thread nD τ).loc main_v2_0) = (dat1 (C2 m ρ) c).arrAt 3 cfg1.N
      ∧ r.2.mem ((c.tc : Thread nD τ).loc main_v2_1) = (dat1 (C2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v2_0 (by decide))).trans (B3_arr m ρ c 3),
     (h c _ (mem_uc main_v2_1 (by decide))).trans (B3_arr m ρ c 4),
     (h c _ (mem_uc main_arg0 (by decide))).trans (B3_main_arg0 m ρ c),
     (h c _ (mem_uc main_arg1 (by decide))).trans (B3_main_arg1 m ρ c)⟩) (run_all m ρ)

end Cert.KernelIdeal.Hand

end
-- ==== Proof.Entry.lean ====
import proofs.«140579_j58884001628800_1_alg».proof.Proof.Gen.KernelIdeal.Launch
import proofs.«140579_j58884001628800_1_alg».proof.Proof.Gen.KernelIdeal.Skeleton
import proofs.«140579_j58884001628800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import proofs.«140579_j58884001628800_1_alg».proof.Proof.KernelRun

/-!
# What the regions find on entry

The first region finds the prototype array as launched and the instances reshaped `[1, 65536, 512] → [65536, 512]`
(the one host operation before it). The second region finds the same two, and in the column `[512, 1]` what the
first region's write-backs left.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem C1_main_arg1 (c : Dev nD) : C1 m ρ c main_arg1 = m ((c : Thread nD τ).loc main_arg1) :=
  (B1_of m ρ c main_arg1 (by decide)).trans rfl

theorem C1_main_v0 (c : Dev nD) :
    (C1 m ρ c main_v0 : S65536x512.Idx → Elt F .f32)
      = shapeCast _ (m ((c : Thread nD τ).loc main_arg0)) shapeCasts_S1x65536x512_S65536x512 := by
  show StableHlo.after hostOps0 (B0 m ρ c) (Proc.devRef .tc main_v0) = _
  after_results
  rfl

theorem C2_main_arg1 (c : Dev nD) : C2 m ρ c main_arg1 = m ((c : Thread nD τ).loc main_arg1) :=
  ((B2_arr m ρ c 0).trans (((dat0 (C1 m ρ) c).arrAt_in 0 rfl _).trans (A_eq0 (C1 m ρ) c 0))).trans (C1_main_arg1 m ρ c)

theorem C2_main_v0 (c : Dev nD) : C2 m ρ c main_v0 = C1 m ρ c main_v0 :=
  (B2_arr m ρ c 1).trans (((dat0 (C1 m ρ) c).arrAt_in 1 rfl _).trans (A_eq0 (C1 m ρ) c 1))

theorem C2_main_v1 (c : Dev nD) : C2 m ρ c main_v1 = (dat0 (C1 m ρ) c).arrAt 2 cfg0.N :=
  B2_arr m ρ c 2

end Cert.KernelIdeal.Hand

end
-- ==== Proof.Blocks.lean ====
import proofs.«140579_j58884001628800_1_alg».proof.Proof.Gen.KernelIdeal.Launch
import proofs.«140579_j58884001628800_1_alg».proof.Proof.Gen.KernelIdeal.Skeleton
import proofs.«140579_j58884001628800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import proofs.«140579_j58884001628800_1_alg».proof.Proof.KernelRun

/-!
# Which rows a point sees

Both kernels run over the same grid of 64 points. At point `t`: the prototype array is seen whole; the instances
window is rows `1024 t … 1024 t + 1023` of `[65536, 512]`; the column of bag sums is seen whole; the weighted
instances are written to the same rows `1024 t …`, the weights to columns `1024 t …` of `[512, 65536]`. The index
maps are decided once over the grid; a block's coordinate is always `index × size + coordinate inside the block`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The index maps, decided over the grid -/

theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = t.val :=
  (by decide +kernel : ∀ t : Fin grid1.N, _)

theorem lt64_0 (t : Fin cfg0.N) : t.val < 64 := lt_of_lt_of_eq t.isLt (show cfg0.N = 64 from N_0)
theorem lt64_1 (t : Fin cfg1.N) : t.val < 64 := lt_of_lt_of_eq t.isLt (show cfg1.N = 64 from N_1)

/-- Row `q` of block `t` is row `1024 t + q` of the array. -/
abbrev rowOf (t : ℕ) (ht : t < 64) (q : Fin 1024) : Fin 65536 := ⟨t * 1024 + q.val, by have := q.isLt; omega⟩

section
variable (V : (c : Dev nD) → (b : Ref sig .tc) → Buf (Elt F) ((c : Thread nD τ).loc b))

/-! ## The first kernel's input blocks -/

theorem iblk0_0_apply (c : Dev nD) (t : Fin cfg0.N) (y : S512x512.Idx) : iblk0 V c 0 t y = V c main_arg1 y := by
  show V c main_arg1 (((cfg0.win 0).blk t).view.emb y) = V c main_arg1 y
  refine congrArg (V c main_arg1) (funext fun a => Fin.ext ?_)
  obtain ⟨e0, e1⟩ := idx0_0 t
  match a with
  | ⟨0, _⟩ => show win0_0.index t (0 : Fin 2) * 512 + 1 * (y 0).val = (y 0).val; omega
  | ⟨1, _⟩ => show win0_0.index t (1 : Fin 2) * 512 + 1 * (y 1).val = (y 1).val; omega

theorem iblk0_1_apply (c : Dev nD) (t : Fin cfg0.N) (q : Fin 1024) (k : Fin 512) :
    iblk0 V c 1 t (ix2 q k) = V c main_v0 (ix2 (rowOf t.val (lt64_0 t) q) k) := by
  show V c main_v0 (((cfg0.win 1).blk t).view.emb (ix2 q k)) = V c main_v0 (ix2 (rowOf t.val (lt64_0 t) q) k)
  refine congrArg (V c main_v0) (funext fun a => Fin.ext ?_)
  obtain ⟨e0, e1⟩ := idx0_1 t
  match a with
  | ⟨0, _⟩ => show win0_1.index t (0 : Fin 2) * 1024 + 1 * q.val = t.val * 1024 + q.val; omega
  | ⟨1, _⟩ => show win0_1.index t (1 : Fin 2) * 512 + 1 * k.val = k.val; omega

/-! ## The second kernel's input blocks -/

theorem iblk1_0_apply (c : Dev nD) (t : Fin cfg1.N) (y : S512x512.Idx) : iblk1 V c 0 t y = V c main_arg1 y := by
  show V c main_arg1 (((cfg1.win 0).blk t).view.emb y) = V c main_arg1 y
  refine congrArg (V c main_arg1) (funext fun a => Fin.ext ?_)
  obtain ⟨e0, e1⟩ := idx1_0 t
  match a with
  | ⟨0, _⟩ => show win1_0.index t (0 : Fin 2) * 512 + 1 * (y 0).val = (y 0).val; omega
  | ⟨1, _⟩ => show win1_0.index t (1 : Fin 2) * 512 + 1 * (y 1).val = (y 1).val; omega

theorem iblk1_1_apply (c : Dev nD) (t : Fin cfg1.N) (q : Fin 1024) (k : Fin 512) :
    iblk1 V c 1 t (ix2 q k) = V c main_v0 (ix2 (rowOf t.val (lt64_1 t) q) k) := by
  show V c main_v0 (((cfg1.win 1).blk t).view.emb (ix2 q k)) = V c main_v0 (ix2 (rowOf t.val (lt64_1 t) q) k)
  refine congrArg (V c main_v0) (funext fun a => Fin.ext ?_)
  obtain ⟨e0, e1⟩ := idx1_1 t
  match a with
  | ⟨0, _⟩ => show win1_1.index t (0 : Fin 2) * 1024 + 1 * q.val = t.val * 1024 + q.val; omega
  | ⟨1, _⟩ => show win1_1.index t (1 : Fin 2) * 512 + 1 * k.val = k.val; omega

theorem iblk1_2_apply (c : Dev nD) (t : Fin cfg1.N) (y : S512x1.Idx) : iblk1 V c 2 t y = V c main_v1 y := by
  show V c main_v1 (((cfg1.win 2).blk t).view.emb y) = V c main_v1 y
  refine congrArg (V c main_v1) (funext fun a => Fin.ext ?_)
  obtain ⟨e0, e1⟩ := idx1_2 t
  match a with
  | ⟨0, _⟩ => show win1_2.index t (0 : Fin 2) * 512 + 1 * (y 0).val = (y 0).val; omega
  | ⟨1, _⟩ => show win1_2.index t (1 : Fin 2) * 1 + 1 * (y 1).val = (y 1).val; omega

end

/-! ## Where the output blocks sit -/

/-- Element `(q, k)` of the weighted-instances block `t` is element `(1024 t + q, k)` of the array. -/
theorem emb1_3 (t : Fin cfg1.N) (q : Fin 1024) (k : Fin 512) :
    ((cfg1.win 3).blk t).view.emb (ix2 q k) = ix2 (rowOf t.val (lt64_1 t) q) k := by
  funext a; apply Fin.ext
  obtain ⟨e0, e1⟩ := idx1_3 t
  match a with
  | ⟨0, _⟩ => show win1_3.index t (0 : Fin 2) * 1024 + 1 * q.val = t.val * 1024 + q.val; omega
  | ⟨1, _⟩ => show win1_3.index t (1 : Fin 2) * 512 + 1 * k.val = k.val; omega

/-- Element `(p, q)` of the weights block `t` is element `(p, 1024 t + q)` of the array. -/
theorem emb1_4 (t : Fin cfg1.N) (p : Fin 512) (q : Fin 1024) :
    ((cfg1.win 4).blk t).view.emb (ix2 p q) = ix2 p (rowOf t.val (lt64_1 t) q) := by
  funext a; apply Fin.ext
  obtain ⟨e0, e1⟩ := idx1_4 t
  match a with
  | ⟨0, _⟩ => show win1_4.index t (0 : Fin 2) * 512 + 1 * p.val = p.val; omega
  | ⟨1, _⟩ => show win1_4.index t (1 : Fin 2) * 1024 + 1 * q.val = t.val * 1024 + q.val; omega

theorem mem_blk1_3 (t : Fin cfg1.N) (i : S65536x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v2_0).slice (win1_3.rect t)).set ↔ _
  rw [View.set_slice_whole, Rect.mem_set_unit]
  exact Iff.rfl

theorem mem_blk1_4 (t : Fin cfg1.N) (i : S512x65536.Idx) :
    i ∈ ((cfg1.win 4).blk t).view.set ↔ ∀ a : Fin 2, win1_4.index t a * S512x1024.size a ≤ (i a).val ∧ (i a).val < win1_4.index t a * S512x1024.size a + S512x1024.size a := by
  show i ∈ ((View.whole main_v2_1).slice (win1_4.rect t)).set ↔ _
  rw [View.set_slice_whole, Rect.mem_set_unit]
  exact Iff.rfl

/-- Every element of the weighted-instances array is in the block of the point its row belongs to. -/
theorem cover1_3 (i : S65536x512.Idx) : ∃ t : Fin cfg1.N, (cfg1.win 3).flush t = true ∧ i ∈ ((cfg1.win 3).blk t).view.set := by
  have hi0 : (i 0).val < 65536 := (i 0).isLt
  have hi1 : (i 1).val < 512 := (i 1).isLt
  have hN : cfg1.N = 64 := N_1
  refine ⟨⟨(i 0).val / 1024, by omega⟩, flush1_3 _, ?_⟩
  rw [mem_blk1_3]
  obtain ⟨e0, e1⟩ := idx1_3 ⟨(i 0).val / 1024, by omega⟩
  intro a
  match a with
  | ⟨0, _⟩ => show win1_3.index _ (0 : Fin 2) * 1024 ≤ (i 0).val ∧ (i 0).val < win1_3.index _ (0 : Fin 2) * 1024 + 1024; simp only [] at e0; omega
  | ⟨1, _⟩ => show win1_3.index _ (1 : Fin 2) * 512 ≤ (i 1).val ∧ (i 1).val < win1_3.index _ (1 : Fin 2) * 512 + 512; omega

/-- Every element of the weights array is in the block of the point its column belongs to. -/
theorem cover1_4 (i : S512x65536.Idx) : ∃ t : Fin cfg1.N, (cfg1.win 4).flush t = true ∧ i ∈ ((cfg1.win 4).blk t).view.set := by
  have hi0 : (i 0).val < 512 := (i 0).isLt
  have hi1 : (i 1).val < 65536 := (i 1).isLt
  have hN : cfg1.N = 64 := N_1
  refine ⟨⟨(i 1).val / 1024, by omega⟩, flush1_4 _, ?_⟩
  rw [mem_blk1_4]
  obtain ⟨e0, e1⟩ := idx1_4 ⟨(i 1).val / 1024, by omega⟩
  intro a
  match a with
  | ⟨0, _⟩ => show win1_4.index _ (0 : Fin 2) * 512 ≤ (i 0).val ∧ (i 0).val < win1_4.index _ (0 : Fin 2) * 512 + 512; omega
  | ⟨1, _⟩ => show win1_4.index _ (1 : Fin 2) * 1024 ≤ (i 1).val ∧ (i 1).val < win1_4.index _ (1 : Fin 2) * 1024 + 1024; simp only [] at e1; omega

end Cert.KernelIdeal.Hand

end
-- ==== Proof.PieceValues.lean ====
import proofs.«140579_j58884001628800_1_alg».proof.Proof.Gen.KernelIdeal.Launch
import proofs.«140579_j58884001628800_1_alg».proof.Proof.Gen.KernelIdeal.Skeleton
import proofs.«140579_j58884001628800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«140579_j58884001628800_1_alg».proof.Proof.SumData

/-!
# What the first kernel's cases leave, as the body's arithmetic

The case runs found, for the scratch column and (at the last point) the output's buffer, lists of written pieces.
Every piece is a store of the whole column, and every load in between reads the whole column, so each list reads
back as one application of the body's arithmetic `k0_pay2` to the two input blocks and the column the point
started from: zero at the first point (it was just reset), the previous contents afterwards. At the last point the
output receives exactly what the scratch holds.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

set_option maxHeartbeats 4000000 in
theorem sFirst_eq (c : Dev nD) (t : Fin cfg0.N) (h0 : t.val = 0) (x0 : Vec F S512x512 .f32) (x1 : Vec F S1024x512 .f32) :
    sFirst c t h0 x0 x1 = k0_pay2 x0 x1 (k0_pay1 (F := F)) := by
  unfold sFirst
  rw [View.read_writes_junk_eq_canon]
  unfold runFirst
  dsimp only
  sl_unfold_words
  rw [View.canon_cons_unit_zero hz2]
  simp only [View.readAt_eq_ld, Memref.IsWhole.read_unread, View.ld_unit_zero (S := S512x512) hz2,
    View.ld_unit_zero (S := S1024x512) hz2, View.ld_unit_zero (S := S512x1) hz2]
  exact congrArg (k0_pay2 x0 x1) (View.readCov_unit_zero (S := S512x1) _ hz2 _ _)

set_option maxHeartbeats 4000000 in
theorem sMiddle_eq (c : Dev nD) (t : Fin cfg0.N) (h0 : t.val ≠ 0) (hl : t.val ≠ 63) (x0 : Vec F S512x512 .f32) (x1 : Vec F S1024x512 .f32)
    (xs : Vec F S512x1 .f32) : sMiddle c t h0 hl x0 x1 xs = k0_pay2 x0 x1 xs := by
  unfold sMiddle
  rw [View.read_writes_junk_eq_canon]
  unfold runMiddle
  dsimp only
  sl_unfold_words
  rw [View.canon_cons_unit_zero hz2]
  simp only [View.readAt_eq_ld, Memref.IsWhole.read_unread, View.ld_unit_zero (S := S512x512) hz2,
    View.ld_unit_zero (S := S1024x512) hz2, View.ld_unit_zero (S := S512x1) hz2]
  first
    | rfl
    | exact congrArg (k0_pay2 x0 x1) (Memref.IsWhole.read_unread (m := (Memref.whole cc0_scratch0 : Memref sig .tc .vmem S512x1 .f32)) (Memref.isWhole_whole _) xs)

set_option maxHeartbeats 4000000 in
theorem sLast_eq (c : Dev nD) (t : Fin cfg0.N) (h0 : t.val ≠ 0) (hl : t.val = 63) (x0 : Vec F S512x512 .f32) (x1 : Vec F S1024x512 .f32)
    (xs : Vec F S512x1 .f32) : sLast c t h0 hl x0 x1 xs = k0_pay2 x0 x1 xs := by
  unfold sLast
  rw [View.read_writes_junk_eq_canon]
  unfold runLast
  dsimp only
  sl_unfold_words
  rw [View.canon_cons_unit_zero hz2]
  simp only [View.readAt_eq_ld, Memref.IsWhole.read_unread, View.ld_unit_zero (S := S512x512) hz2,
    View.ld_unit_zero (S := S1024x512) hz2, View.ld_unit_zero (S := S512x1) hz2]
  first
    | rfl
    | exact congrArg (k0_pay2 x0 x1) (Memref.IsWhole.read_unread (m := (Memref.whole cc0_scratch0 : Memref sig .tc .vmem S512x1 .f32)) (Memref.isWhole_whole _) xs)

set_option maxHeartbeats 4000000 in
theorem oLast_eq (c : Dev nD) (t : Fin cfg0.N) (h0 : t.val ≠ 0) (hl : t.val = 63) (x0 : Vec F S512x512 .f32) (x1 : Vec F S1024x512 .f32)
    (xs : Vec F S512x1 .f32) : oLast c t h0 hl x0 x1 xs = k0_pay2 x0 x1 xs := by
  unfold oLast
  rw [View.read_writes_junk_eq_canon]
  unfold runLast
  dsimp only
  sl_unfold_words
  rw [View.canon_cons_unit_zero hz2]
  simp only [View.readAt_eq_ld, Memref.IsWhole.read_unread, View.ld_unit_zero (S := S512x512) hz2,
    View.ld_unit_zero (S := S1024x512) hz2, View.ld_unit_zero (S := S512x1) hz2]
  refine (View.readCov_unit_zero (S := S512x1) _ hz2 _ _).trans ?_
  first
    | rfl
    | exact congrArg (k0_pay2 x0 x1) (Memref.IsWhole.read_unread (m := (Memref.whole cc0_scratch0 : Memref sig .tc .vmem S512x1 .f32)) (Memref.isWhole_whole _) xs)

end Cert.KernelIdeal.Hand

end
-- ==== Proof.BlockSpec.lean ====
import proofs.«140579_j58884001628800_1_alg».proof.Proof.Spec

/-!
# One block of instances

What one grid point sees: all 512 prototypes `Pb : [512, 512]` and a block of 1024 instances `Xb : [1024, 512]`.
`bdist Pb Xb p q` is the distance from prototype `p` to the block's instance `q` (the same expanded square as
`Cert.Spec.dist`), `binv` its inverse after the kernel's scaling.
-/

noncomputable section

namespace Cert.BlockSpec

open Idealize.ShloMosaic Idealize.ShloMosaic.ValueIdx

abbrev SPb : Shape := ⟨2, ![512, 512]⟩
abbrev SXb : Shape := ⟨2, ![1024, 512]⟩
abbrev SCol : Shape := ⟨2, ![512, 1]⟩
abbrev SWb : Shape := ⟨2, ![512, 1024]⟩

/-- The distance from prototype `p` to instance `q` of the block. -/
def bdist (Pb : SPb.Idx → EReal) (Xb : SXb.Idx → EReal) (p : Fin 512) (q : Fin 1024) : EReal :=
  Ideal.sqrt (max ((∑ c : Fin 512, Pb (ix2 p c) * Pb (ix2 p c)) + (∑ c : Fin 512, Xb (ix2 q c) * Xb (ix2 q c))
    - Ideal.ofBits .f32 0x40000000#32 * (∑ c : Fin 512, Pb (ix2 p c) * Xb (ix2 q c))) 0)

/-- The inverse of the kernel-scaled distance. -/
def binv (Pb : SPb.Idx → EReal) (Xb : SXb.Idx → EReal) (p : Fin 512) (q : Fin 1024) : EReal :=
  Ideal.div 1 (Spec.scaleK (bdist Pb Xb p q))

end Cert.BlockSpec

end
-- ==== Proof.LibColumns.lean ====
/-
  General lemmas, none about a particular kernel.

  (1) The "keepdims" column forms of two layout operations, read at an index: an [a,1] column repeated along b lanes
      (`vector.broadcast` of a per-row scalar over a row), and an [a] vector seen as an [a,1] column (`vector.shape_cast`
      after a lane reduction with keepdims).
  (2) Two re-indexings of finite sums over any commutative monoid: a sum over a·b consecutive naturals cut into a runs
      of b, and a sum over the index of a rank-one shape as the sum over its coordinate.
-/
import Idealize.ShloMosaic.Lib.Pipeline.Value
import Idealize.ShloMosaic.Lib.ValueIdx

namespace Cert.Lib

open Idealize.ShloMosaic Idealize.ShloMosaic.ValueIdx

/-- An [a,1] column repeated along b lanes reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => show (0 : ℕ) = if (1 : ℕ) = 1 then 0 else c.val; rw [if_pos rfl]

/-- An [a] vector seen as an [a,1] column reads, at (p, 0), the vector at p. -/
theorem shapeCast_a_a1_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    omega)

/-- A sum over a·b consecutive naturals, cut into a runs of b. -/
theorem sum_range_mul {M : Type*} [AddCommMonoid M] (f : ℕ → M) (a b : ℕ) :
    ∑ n ∈ Finset.range (a * b), f n = ∑ t ∈ Finset.range a, ∑ r ∈ Finset.range b, f (t * b + r) := by
  induction a with
  | zero => simp
  | succ a ih => rw [Nat.succ_mul, Finset.sum_range_add, ih, Finset.sum_range_succ]

/-- A sum over a rank-one index is the sum over its coordinate. -/
theorem sum_idx1 {M : Type*} [AddCommMonoid M] {n : ℕ} (f : (⟨1, ![n]⟩ : Shape).Idx → M) :
    ∑ j : (⟨1, ![n]⟩ : Shape).Idx, f j = ∑ a : Fin n, f (ix1 a) :=
  let e : (⟨1, ![n]⟩ : Shape).Idx ≃ Fin n := ⟨fun j => j 0, ix1, fun j => (eq_ix1 j).symm, fun _ => rfl⟩
  Fintype.sum_equiv e _ _ fun j => congrArg f (eq_ix1 j)

end Cert.Lib
-- ==== Proof.LibRowReduce.lean ====
/-
  General lemmas, none about a particular program: the reductions of an [a, b] array along its lanes (the last axis),
  read at a row, at the exact (extended-real) instance — in the spelling a kernel body uses (`vector.multi_reduction`)
  and in the spelling a host program uses (`stablehlo.reduce`) — and a per-row vector spread over the lanes of an
  [a, b] array by two `broadcast_in_dim`s, read at an index.

  * The maximum: both spellings are the fold of `max` over the row's `b` entries from the initial value.
  * The sum: the kernel's is the sum of the row's entries; the host's is the initial value plus that sum.
  * `[a] → [a, 1] → [a, b]`: entry (r, q) is entry r of the vector.
-/
import Idealize.ShloMosaic.Lib.ValueIdx
import Idealize.ShloMosaic.Lib.Pipeline.Value
import Idealize.ShloMosaic.PureOps.Ideal.Laws

noncomputable section

open scoped BigOperators

namespace Cert.Lib

open Idealize.ShloMosaic Idealize.ShloMosaic.ValueIdx

/-- The row index `r` with the lane `k` put back is (r, k). -/
theorem lift_lane {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's lane maximum at row `r`: the fold of `max` over the row from the accumulator's value. -/
theorem multiReduction_max_lanes {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] (⟨1, ![a]⟩ : Shape) src acc h hφ hacc (ix1 r)
      = (Finset.univ : Finset (Fin b)).fold max (Ideal.ofBits φ acc) (fun k => src (ix2 r k)) := by
  rw [Ideal.multiReduction_maximumf_single]
  have hf : (src ∘ h.lift (ix1 r)) = fun k : Fin b => src (ix2 r k) := funext fun k => congrArg src (lift_lane h r k)
  exact congrArg (fun f => Finset.fold max (Ideal.ofBits φ acc) f (Finset.univ : Finset (Fin b))) hf

/-- A kernel's lane sum at row `r`: the sum of the row's entries. -/
theorem multiReduction_add_lanes {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] (⟨1, ![a]⟩ : Shape) src acc h hφ hacc (ix1 r) = ∑ k : Fin b, src (ix2 r k) := by
  rw [Ideal.multiReduction_add_single]
  exact Finset.sum_congr rfl fun k _ => congrArg src (lift_lane h r k)

/-- The host's reduce with a maximum body along the lanes, at row `r`: the fold of `max` over the row from the
    initial value. -/
theorem hostReduce_max_lanes {a b : ℕ} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x _ h' h hu]
  have hf : (x ∘ h.lift (ix1 r)) = fun k : Fin b => x (ix2 r k) := funext fun k => congrArg x (lift_lane h r k)
  exact congrArg (fun f => Finset.fold max (init (Shape.Idx.first hu)) f (Finset.univ : Finset (Fin b))) hf

/-- The host's float sum along the lanes, at row `r`: the initial value plus the sum of the row's entries. -/
theorem hostReduceAdd_lanes {a b : ℕ} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_lane h r k))

/-- An [a, 1] column spread over b lanes by `broadcast_in_dim` reads, at (r, q), the column at (r, 0). -/
theorem broadcastInDim_a1_ab_apply {α : Type} {a b : ℕ} (Y : (⟨2, ![a, 1]⟩ : Shape).Idx → α)
    (h2 : (⟨2, ![a, 1]⟩ : Shape).BroadcastsInDim ⟨2, ![a, b]⟩ ![0, 1]) (r : Fin a) (q : Fin b) :
    broadcastInDim ⟨2, ![a, b]⟩ ![0, 1] h2 Y (ix2 r q) = Y (ix2 r (0 : Fin 1)) :=
  broadcastInDim_apply ![0, 1] h2 Y (ix2 r q) (ix2 r (0 : Fin 1)) (fun ax => by
    match ax with
    | ⟨0, _⟩ =>
      show r.val = if a = 1 then 0 else r.val
      split
      · have := r.isLt; omega
      · rfl
    | ⟨1, _⟩ => show 0 = if (1 : Nat) = 1 then 0 else q.val; rw [if_pos rfl])

/-- An [a] vector seen as an [a, 1] column by `broadcast_in_dim` reads, at (r, 0), the vector at r. -/
theorem broadcastInDim_a_a1_apply {α : Type} {a : ℕ} (v : (⟨1, ![a]⟩ : Shape).Idx → α)
    (h1 : (⟨1, ![a]⟩ : Shape).BroadcastsInDim ⟨2, ![a, 1]⟩ ![0]) (r : Fin a) (u : Fin 1) :
    broadcastInDim ⟨2, ![a, 1]⟩ ![0] h1 v (ix2 r u) = v (ix1 r) :=
  broadcastInDim_apply ![0] h1 v (ix2 r u) (ix1 r) (fun ax => by
    match ax with
    | ⟨0, _⟩ =>
      show r.val = if a = 1 then 0 else r.val
      split
      · have := r.isLt; omega
      · rfl)

/-- A per-row vector spread over the lanes by two `broadcast_in_dim`s, `[a] → [a, 1]` along the first axis and
    `[a, 1] → [a, b]`, reads at (r, q) the vector's entry r. -/
theorem broadcastInDim_col_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1])
    (r : Fin a) (q : Fin b) :
    broadcastInDim ⟨2, ![a, b]⟩ ![0, 1] h2 (broadcastInDim ⟨2, ![a, 1]⟩ ![0] h1 v) (ix2 r q) = v (ix1 r) :=
  (broadcastInDim_a1_ab_apply _ h2 r q).trans (broadcastInDim_a_a1_apply v h1 r 0)

end Cert.Lib

end
-- ==== Proof.LibPlainMatmul.lean ====
/-
  A plain matrix product read at an index, at the exact (extended-real) instance.

  For operands `l : [M, K]` and `w : [K, N]` and the dimension numbers "contract the left operand's last axis with the
  right operand's first, no batch axis", the product accumulated into the zero array has, at `(r, c)`, the value
  `∑ j, l (r, j) * w (j, c)`: there is no rounding and no accumulation order at this instance, and the one-axis contraction
  index is its one coordinate. Stated for every extent and every pair of operand formats (at this instance an entry is an
  extended real whatever its format).
-/
import Idealize.ShloMosaic.Lib.ValueIdx
import Idealize.ShloMosaic.PureOps.Ideal.Laws

noncomputable section

open scoped BigOperators

namespace Cert.Lib

open Idealize.ShloMosaic Idealize.ShloMosaic.ValueIdx

/-- A plain matrix product `[M, K] × [K, N]` accumulated into zeros, read at `(r, c)`: the sum over the contracted
    index `j` of `l (r, j) * w (j, c)`. -/
theorem matmul_plain_zero_apply {M K N : ℕ} {φ₁ φ₂ : FTy} (prec : Option ContractPrecision)
    (l : FVec Ideal ⟨2, ![M, K]⟩ φ₁) (w : FVec Ideal ⟨2, ![K, N]⟩ φ₂) (r : Fin M) (c : Fin N) :
    matmul (DotDims.plain M K N) prec l w (constant (F := Ideal) ⟨2, ![M, N]⟩ .f32 0x00000000#32) (ix2 r c)
      = ∑ j : Fin K, l (ix2 r j) * w (ix2 j c) := by
  simp only [matmul]
  rw [Ideal.matmul_constant_zero_apply, ← Equiv.sum_comp (contrEquiv1 (DotDims.plain M K N) K rfl rfl).symm]
  refine Finset.sum_congr rfl fun k _ => ?_
  -- the contraction index built from `k` has `k` as its one coordinate
  have hk := contrEquiv1_symm_val (DotDims.plain M K N) K rfl rfl k
  -- the left operand is read at (r, k): its kept axis follows the output's row, its contracted axis the index
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  -- the right operand is read at (k, c)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

end Cert.Lib

end
-- ==== Proof.KernelSide.lean ====
import proofs.«140579_j58884001628800_1_alg».proof.Proof.Gen.KernelIdeal.Skeleton
import proofs.«140579_j58884001628800_1_alg».proof.Proof.BlockSpec
import proofs.«140579_j58884001628800_1_alg».proof.Proof.LibColumns
import proofs.«140579_j58884001628800_1_alg».proof.Proof.LibRowReduce
import proofs.«140579_j58884001628800_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

/-!
# The kernel's payloads read at an index

At the exact instance a float is an extended real, every operation is the extended reals' and a change of float
format is the identity. Both kernels begin alike: from the prototypes `Pb : [512, 512]` and a block of instances
`Xb : [1024, 512]` they form the squared norms of the prototypes (a column), the squared norms of the instances (a row),
the matrix of inner products, and from these the `[512, 1024]` array of inverse scaled distances, whose entry `(p, q)` is
`Cert.BlockSpec.binv Pb Xb p q`. The first kernel adds each row's sum to a running column; the second divides each row by
the finished column and multiplies the transposed quotient by the instances.
-/

noncomputable section

namespace Cert.KernelSide

open Cert.KernelIdeal Cert.KernelIdeal.Gen Idealize.ShloMosaic Idealize.ShloMosaic.ValueIdx Cert.BlockSpec

variable (Pb : Vec Ideal S512x512 .f32) (Xb : Vec Ideal S1024x512 .f32)

/-! ## The common beginning of the two kernels -/

/-- The squared norms of the prototypes, as a column `[512, 1]`: each row's sum of squares. -/
def psqCol : FVec Ideal S512x1 .f32 :=
  shapeCast S512x1 (multiReduction .add [1] S512 (mulf Pb Pb) 0x00000000#32 reduces_S512x512_S512 (.inl rfl) rfl)
    shapeCasts_S512_S512x1

/-- The squared norms of the block's instances, as a row `[1, 1024]`: each instance's sum of squares, the column of
    sums then transposed. -/
def xsqRow : FVec Ideal S1x1024 .f32 :=
  transpose S1x1024 [1, 0]
    (shapeCast S1024x1
      (multiReduction .add [1] S1024
        (mulf (shapeCast S1024x512 Xb shapeCasts_S1024x512_S1024x512) (shapeCast S1024x512 Xb shapeCasts_S1024x512_S1024x512))
        0x00000000#32 reduces_S1024x512_S1024 (.inl rfl) rfl)
      shapeCasts_S1024_S1024x1)
    transposes_S1024x1_p1_0_S1x1024

/-- The inner products of the prototypes with the block's instances, `[512, 1024]`: the prototypes times the transposed
    instances, both operands first narrowed to a sixteen-bit format (the identity here). -/
def crossArr : FVec Ideal S512x1024 .f32 :=
  matmul dot_S512x512_S512x1024_S512x1024_1_0_0_1_n_n none (truncf .bf16 Pb bitsLt_bf16_f32)
    (transpose S512x1024 [1, 0] (truncf .bf16 (shapeCast S1024x512 Xb shapeCasts_S1024x512_S1024x512) bitsLt_bf16_f32)
      transposes_S1024x512_p1_0_S512x1024)
    (constant S512x1024 .f32 0x00000000#32)

/-- The inverse scaled distances from every prototype to every instance of the block, `[512, 1024]`:
    `1 / (√(max (‖p‖² + ‖x‖² − 2⟨p, x⟩) 0) · scale)`. -/
def invArr : FVec Ideal S512x1024 .f32 :=
  divf (broadcast S512x1024 (Scalar.ofBits .f32 0x3F800000#32))
    (mulf
      (sqrt (maximumf
        (subf (addf (broadcastTo S512x1024 (psqCol Pb) broadcasts_S512x1_S512x1024)
                    (broadcastTo S512x1024 (xsqRow Xb) broadcasts_S1x1024_S512x1024))
              (mulf (broadcast S512x1024 (Scalar.ofBits .f32 0x40000000#32)) (crossArr Pb Xb)))
        (broadcast S512x1024 (Scalar.ofBits .f32 0x00000000#32))))
      (broadcast S512x1024 (Scalar.ofBits .f32 0x3D3504F3#32)))

/-- Entry `(p, ·)` of the column of squared norms is `‖p‖²`. -/
theorem psqCol_apply (p : Fin 512) (u : Fin 1) :
    psqCol Pb (ix2 p u) = ∑ c : Fin 512, Pb (ix2 p c) * Pb (ix2 p c) := by
  unfold psqCol
  refine (Cert.Lib.shapeCast_a_a1_apply _ _ p u).trans ?_
  exact Cert.Lib.multiReduction_add_lanes (mulf Pb Pb) _ _ _ _ p

/-- Entry `(·, q)` of the row of squared norms is `‖x q‖²`. -/
theorem xsqRow_apply (u : Fin 1) (q : Fin 1024) :
    xsqRow Xb (ix2 u q) = ∑ c : Fin 512, Xb (ix2 q c) * Xb (ix2 q c) := by
  unfold xsqRow
  rw [shapeCast_self]
  refine (transpose_ix2_apply _ _ u q).trans ?_
  refine (Cert.Lib.shapeCast_a_a1_apply _ _ q u).trans ?_
  exact Cert.Lib.multiReduction_add_lanes (mulf Xb Xb) _ _ _ _ q

/-- Entry `(p, q)` of the matrix product is `⟨p, x q⟩`. -/
theorem crossArr_apply (p : Fin 512) (q : Fin 1024) :
    crossArr Pb Xb (ix2 p q) = ∑ c : Fin 512, Pb (ix2 p c) * Xb (ix2 q c) := by
  unfold crossArr
  rw [shapeCast_self]
  refine (Cert.Lib.matmul_plain_zero_apply (M := 512) (K := 512) (N := 1024) none _ _ p q).trans ?_
  refine Finset.sum_congr rfl fun c _ => ?_
  exact congrArg (Pb (ix2 p c) * ·) (transpose_ix2_apply _ _ c q)

/-- Entry `(p, q)` of the array of inverse scaled distances is the block specification's. -/
theorem invArr_apply (p : Fin 512) (q : Fin 1024) : invArr Pb Xb (ix2 p q) = binv Pb Xb p q := by
  unfold invArr binv bdist Spec.scaleK
  show Ideal.div (Ideal.ofBits .f32 0x3F800000#32)
      (Ideal.sqrt (max (broadcastTo S512x1024 (psqCol Pb) broadcasts_S512x1_S512x1024 (ix2 p q)
            + broadcastTo S512x1024 (xsqRow Xb) broadcasts_S1x1024_S512x1024 (ix2 p q)
            - Ideal.ofBits .f32 0x40000000#32 * crossArr Pb Xb (ix2 p q)) (Ideal.ofBits .f32 0x00000000#32))
        * Ideal.ofBits .f32 0x3D3504F3#32) = _
  rw [Cert.Lib.broadcastTo_a1_ab_apply, broadcastTo_1b_ab_apply, psqCol_apply, xsqRow_apply, crossArr_apply,
    Consts.ofBits_one, Consts.ofBits_zero]

/-! ## The payloads as the common beginning followed by their own ends -/

/-- The reset value: a splat of the zero pattern, cast to its own shape. -/
theorem k0_pay1_eq :
    k0_pay1 (F := Ideal) = shapeCast S512x1 (broadcast S512x1 (Scalar.ofBits .f32 0x00000000#32)) shapeCasts_S512x1_S512x1 := rfl

/-- The accumulation: the running column plus the column of row sums of the inverse scaled distances. -/
theorem k0_pay2_eq (acc : Vec Ideal S512x1 .f32) :
    k0_pay2 (F := Ideal) Pb Xb acc
      = shapeCast S512x1 (addf acc (shapeCast S512x1
          (multiReduction .add [1] S512 (invArr Pb Xb) 0x00000000#32 reduces_S512x1024_S512 (.inl rfl) rfl)
          shapeCasts_S512_S512x1)) shapeCasts_S512x1_S512x1 := rfl

/-- The weights: the inverse scaled distances over the finished column spread along the lanes. -/
theorem k1_pay2_eq (s : Vec Ideal S512x1 .f32) :
    k1_pay2 (F := Ideal) Pb Xb s
      = divf (invArr Pb Xb)
          (broadcastTo S512x1024 (shapeCast S512x1 s shapeCasts_S512x1_S512x1) broadcasts_S512x1_S512x1024) := rfl

/-- The weighted instances: the transposed weights times the instances. -/
theorem k1_pay3_eq (s : Vec Ideal S512x1 .f32) :
    k1_pay3 (F := Ideal) Pb Xb s
      = mulf (transpose S1024x512 [1, 0] (k1_pay2 (F := Ideal) Pb Xb s) transposes_S512x1024_p1_0_S1024x512)
          (shapeCast S1024x512 Xb shapeCasts_S1024x512_S1024x512) := rfl

/-! ## The four payloads at an index -/

/-- The reset value of the accumulator is zero. -/
theorem zeros_apply (j : S512x1.Idx) : k0_pay1 (F := Ideal) j = 0 := by
  rw [k0_pay1_eq, shapeCast_self]
  exact Consts.ofBits_zero

/-- One point adds, to each prototype's running sum, the inverse scaled distances to the block's 1024 instances. -/
theorem accum_apply (acc : Vec Ideal S512x1 .f32) (p : Fin 512) (u : Fin 1) :
    k0_pay2 (F := Ideal) Pb Xb acc (ix2 p u) = acc (ix2 p u) + ∑ q : Fin 1024, binv Pb Xb p q := by
  rw [k0_pay2_eq, shapeCast_self, addf_apply]
  refine congrArg (acc (ix2 p u) + ·) ?_
  refine (Cert.Lib.shapeCast_a_a1_apply _ _ p u).trans ?_
  refine (Cert.Lib.multiReduction_add_lanes (invArr Pb Xb) _ _ _ _ p).trans ?_
  exact Finset.sum_congr rfl fun q _ => invArr_apply Pb Xb p q

/-- The weights block: the inverse scaled distance over the prototype's bag sum. -/
theorem weights_apply (s : Vec Ideal S512x1 .f32) (p : Fin 512) (q : Fin 1024) :
    k1_pay2 (F := Ideal) Pb Xb s (ix2 p q) = Ideal.div (binv Pb Xb p q) (s (ix2 p (0 : Fin 1))) := by
  rw [k1_pay2_eq, divf_apply, invArr_apply, Cert.Lib.broadcastTo_a1_ab_apply, shapeCast_self]

/-- The weighted instances block: the transposed weights times the instances. -/
theorem weighted_apply (s : Vec Ideal S512x1 .f32) (q : Fin 1024) (c : Fin 512) :
    k1_pay3 (F := Ideal) Pb Xb s (ix2 q c)
      = Ideal.div (binv Pb Xb c q) (s (ix2 c (0 : Fin 1))) * Xb (ix2 q c) := by
  rw [k1_pay3_eq, mulf_apply, shapeCast_self, transpose_ix2_apply, weights_apply]

/-! ## A sum over the bag, cut into the grid's blocks -/

/-- A sum over the 65536 instances is the sum over the 64 blocks of the sums over each block's 1024 instances. -/
theorem sum_tiles {M : Type*} [AddCommMonoid M] (f : Fin 65536 → M) :
    ∑ n : Fin 65536, f n
      = ∑ t : Fin 64, ∑ q : Fin 1024, f ⟨t.val * 1024 + q.val, by have := t.isLt; have := q.isLt; omega⟩ := by
  -- the summand extended by zero to every natural number
  let g : ℕ → M := fun n => if h : n < 65536 then f ⟨n, h⟩ else 0
  have hg : ∀ n : Fin 65536, f n = g n.val := fun n => by simp only [g, dif_pos n.isLt]
  have h1 : ∑ n : Fin 65536, f n = ∑ n ∈ Finset.range (64 * 1024), g n := by
    rw [Finset.sum_congr rfl fun n _ => hg n]
    exact Fin.sum_univ_eq_sum_range g 65536
  rw [h1, Cert.Lib.sum_range_mul, ← Fin.sum_univ_eq_sum_range (fun t => ∑ r ∈ Finset.range 1024, g (t * 1024 + r)) 64]
  refine Finset.sum_congr rfl fun t _ => ?_
  rw [← Fin.sum_univ_eq_sum_range (fun r => g (t.val * 1024 + r)) 1024]
  refine Finset.sum_congr rfl fun q _ => ?_
  have hlt : t.val * 1024 + q.val < 65536 := by have := t.isLt; have := q.isLt; omega
  simp only [g, dif_pos hlt]

end Cert.KernelSide

end
-- ==== Proof.SumValue.lean ====
import proofs.«140579_j58884001628800_1_alg».proof.Proof.Gen.KernelIdeal.Launch
import proofs.«140579_j58884001628800_1_alg».proof.Proof.Gen.KernelIdeal.Skeleton
import proofs.«140579_j58884001628800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import proofs.«140579_j58884001628800_1_alg».proof.Proof.Entry
import proofs.«140579_j58884001628800_1_alg».proof.Proof.Blocks
import proofs.«140579_j58884001628800_1_alg».proof.Proof.PieceValues
import proofs.«140579_j58884001628800_1_alg».proof.Proof.KernelSide

/-!
# The column of bag sums, at the extended reals

Read at the extended reals, the scratch column after point `n`, at prototype `p`, is the sum over the points
`t ≤ n` and the 1024 instances `q` of block `t` of the inverse scaled distance from `p` to instance `1024 t + q`
(`invAt`): the first point starts from zero, every later point adds its block's sum to what the point before left.
After the last point this is the sum over the whole bag of 65536 instances, and that is what the first region writes
to the column `[512, 1]` the second region reads.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Spec Cert.BlockSpec

variable (m : (ℓ : Loc nD τ sig) → Buf (Elt Ideal) ℓ) (ρ : Dev nD → PrngReg) (c : Dev nD)

/-- The instances and the prototypes as launched. -/
abbrev Xm : SX.Idx → EReal := m ((c : Thread nD τ).loc main_arg0)
abbrev Pm : SP.Idx → EReal := m ((c : Thread nD τ).loc main_arg1)

/-- The reshaped instances read at `(n, k)`: feature `k` of instance `n`. -/
theorem xs_read (n : Fin 65536) (k : Fin 512) : C1 m ρ c main_v0 (ix2 n k) = xs (Xm m c) n k := by
  rw [C1_main_v0]
  unfold xs
  exact shapeCast_apply _ shapeCasts_S1x65536x512_S65536x512 (ix2 n k) (ix3 (0 : Fin 1) n k)
    (by rewrite [Shape.rowMajor_val_three, Shape.rowMajor_val_two]; have h0 := n.isLt; have h1 := k.isLt
        show (0 * 65536 + n.val) * 512 + k.val = n.val * 512 + k.val; omega)

/-- A block's distance is the bag's distance at the block's row. -/
theorem bdist_read0 (t : Fin cfg0.N) (p : Fin 512) (q : Fin 1024) :
    bdist (iblk0 (C1 m ρ) c 0 t) (iblk0 (C1 m ρ) c 1 t) p q = Spec.dist (Xm m c) (Pm m c) p (rowOf t.val (lt64_0 t) q) := by
  unfold bdist Spec.dist psq xsq cross
  have e1 : ∀ x : Fin 512, iblk0 (C1 m ρ) c 0 t (ix2 p x) = Pm m c (ix2 p x) := fun x => by
    rw [iblk0_0_apply, C1_main_arg1]
  have e2 : ∀ x : Fin 512, iblk0 (C1 m ρ) c 1 t (ix2 q x) = xs (Xm m c) (rowOf t.val (lt64_0 t) q) x := fun x => by
    rw [iblk0_1_apply, xs_read]
  simp only [e1, e2]

/-- The inverse scaled distance from prototype `p` to instance `n` of the bag (`0` past the bag's end). -/
def invAt (p : Fin 512) (n : ℕ) : EReal :=
  if h : n < 65536 then Ideal.div 1 (scaleK (Spec.dist (Xm m c) (Pm m c) p ⟨n, h⟩)) else 0

/-- One block's contribution. -/
def tileSum (p : Fin 512) (t : ℕ) : EReal := ∑ q : Fin 1024, invAt m c p (t * 1024 + q.val)

theorem tile_read0 (t : Fin cfg0.N) (p : Fin 512) :
    (∑ q : Fin 1024, binv (iblk0 (C1 m ρ) c 0 t) (iblk0 (C1 m ρ) c 1 t) p q) = tileSum m c p t.val := by
  unfold tileSum
  refine Finset.sum_congr rfl fun q _ => ?_
  unfold binv invAt
  rw [bdist_read0, dif_pos (by have := lt64_0 t; have := q.isLt; omega)]

/-- THE RUNNING SUM at the extended reals. -/
theorem acc_apply : ∀ (n : ℕ) (hn : n < cfg0.N) (p : Fin 512) (u : Fin 1),
    accAt (C1 m ρ) c n hn (ix2 p u) = ∑ t' ∈ Finset.range (n + 1), tileSum m c p t'
  | 0, hn, p, u => by
    have e : accAt (C1 m ρ) c 0 hn = sFirst c ⟨0, hn⟩ rfl (iblk0 (C1 m ρ) c 0 ⟨0, hn⟩) (iblk0 (C1 m ρ) c 1 ⟨0, hn⟩) :=
      accAt_first (C1 m ρ) c ⟨0, hn⟩ rfl
    rw [e, sFirst_eq, KernelSide.accum_apply, KernelSide.zeros_apply, zero_add, Finset.sum_range_one]
    exact tile_read0 m ρ c ⟨0, hn⟩ p
  | n + 1, hn, p, u => by
    have ih := acc_apply n (Nat.lt_of_succ_lt hn) p u
    have step : accAt (C1 m ρ) c (n + 1) hn
        = k0_pay2 (iblk0 (C1 m ρ) c 0 ⟨n + 1, hn⟩) (iblk0 (C1 m ρ) c 1 ⟨n + 1, hn⟩) (accAt (C1 m ρ) c n (Nat.lt_of_succ_lt hn)) := by
      by_cases hl : n + 1 = 63
      · exact (accAt_last (C1 m ρ) c ⟨n + 1, hn⟩ (Nat.succ_ne_zero n) hl).trans (sLast_eq c _ _ _ _ _ _)
      · exact (accAt_middle (C1 m ρ) c ⟨n + 1, hn⟩ (Nat.succ_ne_zero n) hl).trans (sMiddle_eq c _ _ _ _ _ _)
    rw [step, KernelSide.accum_apply, ih, Finset.sum_range_succ _ (n + 1)]
    exact congrArg (_ + ·) (tile_read0 m ρ c ⟨n + 1, hn⟩ p)

/-- After the last point: the sum over the whole bag. -/
theorem acc_last (hn : 63 < cfg0.N) (p : Fin 512) (u : Fin 1) :
    accAt (C1 m ρ) c 63 hn (ix2 p u) = ∑ n : Fin 65536, Ideal.div 1 (scaleK (Spec.dist (Xm m c) (Pm m c) p n)) := by
  rw [acc_apply, KernelSide.sum_tiles (fun n : Fin 65536 => Ideal.div 1 (scaleK (Spec.dist (Xm m c) (Pm m c) p n))),
    Finset.sum_range (fun t' => tileSum m c p t')]
  refine Finset.sum_congr rfl fun t _ => ?_
  unfold tileSum
  refine Finset.sum_congr rfl fun q _ => ?_
  unfold invAt
  rw [dif_pos (by have := t.isLt; have := q.isLt; omega)]

end Cert.KernelIdeal.Hand

end
-- ==== Proof.OutValue.lean ====
import proofs.«140579_j58884001628800_1_alg».proof.Proof.Gen.KernelIdeal.Launch
import proofs.«140579_j58884001628800_1_alg».proof.Proof.Gen.KernelIdeal.Skeleton
import proofs.«140579_j58884001628800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import proofs.«140579_j58884001628800_1_alg».proof.Proof.SumValue

/-!
# The two result arrays

The first region writes its output once, at the last point, whole: the column `[512, 1]` then holds the bag sums.
The second region writes back, at every point `t`, block `t` of each result; read at an element, the weights block
is the inverse scaled distance over the prototype's bag sum, and the weighted-instances block is that, transposed,
times the instance's feature. These are block `t` of the specification's arrays, and the blocks cover the arrays
(the block of a row or column is the point `row / 1024`), so the results ARE the specification's arrays, with the
kernel's scaling.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Spec Cert.BlockSpec

variable (m : (ℓ : Loc nD τ sig) → Buf (Elt Ideal) ℓ) (ρ : Dev nD → PrngReg) (c : Dev nD)

theorem lt63 : 63 < cfg0.N := by rw [show cfg0.N = 64 from N_0]; decide

/-! ## The column of bag sums -/

theorem mem_blk0_2 (t : Fin cfg0.N) (i : S512x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v1).slice (win0_2.rect t)).set ↔ _
  rw [View.set_slice_whole, Rect.mem_set_unit]
  exact Iff.rfl

/-- What the last point writes back is the whole column at the final running sum. -/
theorem flushed0_2 (t : Fin cfg0.N) (hf : (cfg0.win 2).flush t = true) :
    (dat0 (C1 m ρ) c).flushed 2 t = ((cfg0.win 2).blk t).view.read (Elt Ideal) (accAt (C1 m ρ) c 63 lt63) := by
  have h63 : t.val = 63 := by have := (flush0_2 t).mp hf; have := lt64_0 t; omega
  obtain ⟨n, hn⟩ := t
  dsimp only at h63
  subst h63
  show (cfg0.win 2).cut (grid0.coords ⟨63, hn⟩) ((dat0 (C1 m ρ) c).after 2 ⟨63, hn⟩) = _
  rw [after0_2, outAt_last (C1 m ρ) c ⟨63, hn⟩ (by decide : (63 : ℕ) ≠ 0) rfl, oLast_eq]
  have e : accAt (C1 m ρ) c 63 lt63
      = k0_pay2 (iblk0 (C1 m ρ) c 0 ⟨63, hn⟩) (iblk0 (C1 m ρ) c 1 ⟨63, hn⟩) (accAt (C1 m ρ) c 62 (Nat.lt_of_succ_lt hn)) :=
    (accAt_last (C1 m ρ) c ⟨63, hn⟩ (by decide : (63 : ℕ) ≠ 0) rfl).trans (sLast_eq c _ _ _ _ _ _)
  rw [e]
  funext y
  show k0_pay2 (iblk0 (C1 m ρ) c 0 ⟨63, hn⟩) (iblk0 (C1 m ρ) c 1 ⟨63, hn⟩) (accAt (C1 m ρ) c 62 (Nat.lt_of_succ_lt hn)) y
    = k0_pay2 (iblk0 (C1 m ρ) c 0 ⟨63, hn⟩) (iblk0 (C1 m ρ) c 1 ⟨63, hn⟩) (accAt (C1 m ρ) c 62 (Nat.lt_of_succ_lt hn)) (((cfg0.win 2).blk ⟨63, hn⟩).view.emb y)
  refine congrArg _ (funext fun a => Fin.ext ?_)
  obtain ⟨e0, e1⟩ := idx0_2 ⟨63, hn⟩
  match a with
  | ⟨0, _⟩ => show (y 0).val = win0_2.index ⟨63, hn⟩ (0 : Fin 2) * 512 + 1 * (y 0).val; omega
  | ⟨1, _⟩ => show (y 1).val = win0_2.index ⟨63, hn⟩ (1 : Fin 2) * 1 + 1 * (y 1).val; omega

/-- The first region leaves the final running sum in the column. -/
theorem column_eq : (dat0 (C1 m ρ) c).arrAt 2 cfg0.N = accAt (C1 m ρ) c 63 lt63 := by
  refine (dat0 (C1 m ρ) c).arrAt_eq_of_cover 2 _ (fun t hf => flushed0_2 m ρ c t hf) (fun i => ?_)
  have hi0 : (i 0).val < 512 := (i 0).isLt
  have hi1 : (i 1).val < 1 := (i 1).isLt
  refine ⟨⟨63, lt63⟩, (flush0_2 _).mpr (by decide), ?_⟩
  rw [mem_blk0_2]
  obtain ⟨e0, e1⟩ := idx0_2 ⟨63, lt63⟩
  intro a
  match a with
  | ⟨0, _⟩ => show win0_2.index _ (0 : Fin 2) * 512 ≤ (i 0).val ∧ (i 0).val < win0_2.index _ (0 : Fin 2) * 512 + 512; omega
  | ⟨1, _⟩ => show win0_2.index _ (1 : Fin 2) * 1 ≤ (i 1).val ∧ (i 1).val < win0_2.index _ (1 : Fin 2) * 1 + 1; omega

/-- The column the second region reads, at prototype `p`: the sum over the bag. -/
theorem column_read (p : Fin 512) (u : Fin 1) :
    C2 m ρ c main_v1 (ix2 p u) = ∑ n : Fin 65536, Ideal.div 1 (scaleK (Spec.dist (Xm m c) (Pm m c) p n)) := by
  rw [C2_main_v1, column_eq]
  exact acc_last m ρ c lt63 p u

/-! ## The second region's blocks -/

theorem bdist_read1 (t : Fin cfg1.N) (p : Fin 512) (q : Fin 1024) :
    bdist (iblk1 (C2 m ρ) c 0 t) (iblk1 (C2 m ρ) c 1 t) p q = Spec.dist (Xm m c) (Pm m c) p (rowOf t.val (lt64_1 t) q) := by
  unfold bdist Spec.dist psq xsq cross
  have e1 : ∀ x : Fin 512, iblk1 (C2 m ρ) c 0 t (ix2 p x) = Pm m c (ix2 p x) := fun x => by
    rw [iblk1_0_apply, C2_main_arg1]
  have e2 : ∀ x : Fin 512, iblk1 (C2 m ρ) c 1 t (ix2 q x) = xs (Xm m c) (rowOf t.val (lt64_1 t) q) x := fun x => by
    rw [iblk1_1_apply, C2_main_v0, xs_read]
  simp only [e1, e2]

set_option maxRecDepth 131072 in
/-- What point `t` writes back of the weights is block `t` of the specification's weights. -/
theorem flushed1_4 (t : Fin cfg1.N) :
    (dat1 (C2 m ρ) c).flushed 4 t = ((cfg1.win 4).blk t).view.read (Elt Ideal) (weights (Xm m c) (Pm m c) scaleK) := by
  show (cfg1.win 4).cut (grid1.coords t) ((dat1 (C2 m ρ) c).after 4 t) = _
  rw [after1_4]
  unfold outW
  rw [View.canon_unit_zero hz2]
  simp only [View.ld_unit_zero (S := S512x512) hz2, View.ld_unit_zero (S := S1024x512) hz2, View.ld_unit_zero (S := S512x1) hz2]
  funext y
  obtain ⟨p, q, rfl⟩ : ∃ (p : Fin 512) (q : Fin 1024), y = ix2 p q := ⟨y 0, y 1, eq_ix2 y⟩
  show k1_pay2 (iblk1 (C2 m ρ) c 0 t) (iblk1 (C2 m ρ) c 1 t) (iblk1 (C2 m ρ) c 2 t) (ix2 p q)
    = weights (Xm m c) (Pm m c) scaleK (((cfg1.win 4).blk t).view.emb (ix2 p q))
  rw [KernelSide.weights_apply, emb1_4, iblk1_2_apply, column_read]
  unfold weights weight binv
  rw [bdist_read1]
  try rfl

/-- What point `t` writes back of the weighted instances is block `t` of the specification's. -/
theorem flushed1_3 (t : Fin cfg1.N) :
    (dat1 (C2 m ρ) c).flushed 3 t = ((cfg1.win 3).blk t).view.read (Elt Ideal) (weighted (Xm m c) (Pm m c) scaleK) := by
  show (cfg1.win 3).cut (grid1.coords t) ((dat1 (C2 m ρ) c).after 3 t) = _
  rw [after1_3]
  unfold outO
  rw [View.canon_unit_zero hz2]
  simp only [View.ld_unit_zero (S := S512x512) hz2, View.ld_unit_zero (S := S1024x512) hz2, View.ld_unit_zero (S := S512x1) hz2]
  funext y
  obtain ⟨q, k, rfl⟩ : ∃ (q : Fin 1024) (k : Fin 512), y = ix2 q k := ⟨y 0, y 1, eq_ix2 y⟩
  show k1_pay3 (iblk1 (C2 m ρ) c 0 t) (iblk1 (C2 m ρ) c 1 t) (iblk1 (C2 m ρ) c 2 t) (ix2 q k)
    = weighted (Xm m c) (Pm m c) scaleK (((cfg1.win 3).blk t).view.emb (ix2 q k))
  rw [KernelSide.weighted_apply, emb1_3, iblk1_2_apply, column_read, iblk1_1_apply, C2_main_v0, xs_read]
  unfold weighted weight binv
  rw [bdist_read1]

/-! ## The arrays -/

theorem weights_final : (dat1 (C2 m ρ) c).arrAt 4 cfg1.N = weights (Xm m c) (Pm m c) scaleK :=
  (dat1 (C2 m ρ) c).arrAt_eq_of_cover 4 _ (fun t _ => flushed1_4 m ρ c t) cover1_4

theorem weighted_final : (dat1 (C2 m ρ) c).arrAt 3 cfg1.N = weighted (Xm m c) (Pm m c) scaleK :=
  (dat1 (C2 m ρ) c).arrAt_eq_of_cover 3 _ (fun t _ => flushed1_3 m ρ c t) cover1_3

/-- THE KERNEL'S RUN, READ: every weakly fair execution terminates with the two results at the specification's arrays
    of the launch arguments (the kernel's scaling) and the arguments unchanged. -/
theorem kernel_run : θ_run defs (onTc (τ := τ) (main (F := Ideal))) ⟨m, fun _ => 0, ρ⟩ (fun r => ∀ c : Dev nD,
      r.2.mem ((c.tc : Thread nD τ).loc main_v2_0) = weighted (Xm m c) (Pm m c) scaleK
      ∧ r.2.mem ((c.tc : Thread nD τ).loc main_v2_1) = weights (Xm m c) (Pm m c) scaleK
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).1.trans (weighted_final m ρ c), (h c).2.1.trans (weights_final m ρ c), (h c).2.2.1, (h c).2.2.2⟩) (run_results m ρ)

end Cert.KernelIdeal.Hand

end
-- ==== Proof.lean ====
/-
  The certificate of this kernel pair: prototype weights of a bag of 65536 instances (512 features) against 512
  prototypes. Both programs compute, for every prototype `p` and instance `n`, the Euclidean distance by the
  expanded square `√(max (‖p‖² + ‖x n‖² − 2⟨p, x n⟩) 0)`, rescale it, invert it, and normalise the inverses over the
  bag; the second result is the weights transposed times the instances. The kernel rescales by multiplying with
  the single-precision constant nearest `1/√512`, the reference by dividing by `√512`: different numbers, so the
  scaled distances differ — but neither result is a scaled distance. In the normalised weight
  `(1/(s·a)) / ∑ (1/(s·a))` a positive finite scale `a` cancels, and a row with a zero distance has bag sum `+∞` and
  all weights `0` on both sides (Proof/NormLaw.lean). That law needs every distance to be a nonnegative real, which
  finite inputs give (Proof/Finite.lean, Proof/Spec.lean).

  The kernel is two grid launches over 64 points each. The first keeps a running column of bag sums in a scratch
  buffer across points (reset at point 0, copied out at point 63); the second recomputes the inverse distances block
  by block and divides by that column. Proof/SumRegion … Proof/KernelRun (and their word-level twins Proof/Word…)
  run both bodies and the whole program; Proof/PieceValues … Proof/OutValue read the results at the extended reals;
  Proof/RefSide reads the reference. Here the five claims are assembled.
-/
import proofs.«140579_j58884001628800_1_alg».proof.Defs
import proofs.«140579_j58884001628800_1_alg».proof.Proof.Gen.Kernel
import proofs.«140579_j58884001628800_1_alg».proof.Proof.Gen.KernelIdeal
import proofs.«140579_j58884001628800_1_alg».proof.Proof.Gen.ReferenceIdeal
import proofs.«140579_j58884001628800_1_alg».proof.Proof.Gen.Pre_finite_inputs
import proofs.«140579_j58884001628800_1_alg».proof.Proof.Gen.ReferenceIdeal.Run
import proofs.«140579_j58884001628800_1_alg».proof.Proof.RefSide
import proofs.«140579_j58884001628800_1_alg».proof.Proof.Finite
import proofs.«140579_j58884001628800_1_alg».proof.Proof.WordRun
import proofs.«140579_j58884001628800_1_alg».proof.Proof.OutValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame (F := Bits) m ρ

/-- So does its reading at the extended reals. -/
theorem frame_ki : Cert.frame_KernelIdeal := fun m ρ _ => Cert.KernelIdeal.Hand.frame (F := Ideal) m ρ

/-- The reference's run, its results forgotten. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote nothing. -/
theorem preserves : Cert.preserves_Kernel_KernelIdeal := trivial

/-- Both programs end with the specification's two arrays: the kernel with its own scaling (Proof/OutValue.lean), the
    reference with division by `√512` (Proof/RefSide.lean); on finite inputs the two scalings give the same
    normalised weights (Proof/Spec.lean). -/
theorem algebraic : Cert.algebraic_KernelIdeal_ReferenceIdeal := by
  intro m ρ m' ρ' hpre hagree
  refine ⟨fun c => Cert.Spec.weighted (Cert.KernelIdeal.Hand.Xm m c) (Cert.KernelIdeal.Hand.Pm m c) Cert.Spec.scaleK,
    fun c => Cert.Spec.weights (Cert.KernelIdeal.Hand.Xm m c) (Cert.KernelIdeal.Hand.Pm m c) Cert.Spec.scaleK,
    Cert.KernelIdeal.Hand.kernel_run m ρ, ?_⟩
  refine (θ_run Cert.ReferenceIdeal.defs _ _).mono (fun _ h c => ?_) (Cert.ReferenceIdeal.Value.run (F := Ideal) m' ρ')
  obtain ⟨hX, hP⟩ := Cert.Finite.finite_of_pre _ _ (hpre c)
  refine ⟨?_, ?_, (h c).2.2.1, (h c).2.2.2⟩
  · rw [(h c).1, Cert.ReferenceIdeal.Read.val_main_v27_eq, Cert.RefSide.v27_eq, (hagree c).1, (hagree c).2]
    exact Cert.Spec.weighted_scaleR_eq_scaleK _ _ hX hP
  · rw [(h c).2.1, Cert.ReferenceIdeal.Read.val_main_v25_eq, Cert.RefSide.v25_eq, (hagree c).1, (hagree c).2]
    exact Cert.Spec.weights_scaleR_eq_scaleK _ _ hX hP

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
